-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S128 .f32) (main_arg8 : FVec F S128x64 .f32) (main_arg9 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x64 .f32) (main_arg5 : FVec F S64 .f32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S128x128 .f32) (main_arg7 : FVec F S128 .f32) (main_arg8 : FVec F S128x64 .f32) (main_arg9 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x256 : Shape := ⟨2, ![128, 256]⟩
abbrev S256 : Shape := ⟨1, ![256]⟩
abbrev S1x256 : Shape := ⟨2, ![1, 256]⟩
abbrev S_ : Shape := ⟨0, ![]⟩
abbrev S256x128 : Shape := ⟨2, ![256, 128]⟩
abbrev S1 : Shape := ⟨1, ![1]⟩
abbrev S2 : Shape := ⟨1, ![2]⟩
abbrev S1x128 : Shape := ⟨2, ![1, 128]⟩
abbrev S400x10000 : Shape := ⟨2, ![400, 10000]⟩
abbrev S400x128 : Shape := ⟨2, ![400, 128]⟩
abbrev S10000x256 : Shape := ⟨2, ![10000, 256]⟩
abbrev S400x256 : Shape := ⟨2, ![400, 256]⟩
abbrev S10000x64 : Shape := ⟨2, ![10000, 64]⟩

abbrev nBuf : Space → Nat
  | .hbm => 36
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S128x256, .f32⟩
  | .hbm, ⟨11, _⟩ => ⟨S128x256, .bf16⟩
  | .hbm, ⟨12, _⟩ => ⟨S256, .f32⟩
  | .hbm, ⟨13, _⟩ => ⟨S1x256, .f32⟩
  | .hbm, ⟨14, _⟩ => ⟨S_, .f32⟩
  | .hbm, ⟨15, _⟩ => ⟨S256x128, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S256x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S256x128, .f32⟩
  | .hbm, ⟨28, _⟩ => ⟨S256x128, .bf16⟩
  | .hbm, ⟨29, _⟩ => ⟨S128, .f32⟩
  | .hbm, ⟨30, _⟩ => ⟨S1x128, .f32⟩
  | .hbm, ⟨31, _⟩ => ⟨S10000x128, .bf16⟩
  | .hbm, ⟨32, _⟩ => ⟨S10000x128, .bf16⟩
  | .hbm, ⟨33, _⟩ => ⟨S10000x128, .f32⟩
  | .hbm, ⟨34, _⟩ => ⟨S10000x64, .f32⟩
  | .hbm, ⟨35, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S128x256, .bf16⟩
  | .local _ .vmem, ⟨4, _⟩ => ⟨S1x256, .f32⟩
  | .local _ .vmem, ⟨5, _⟩ => ⟨S256x128, .bf16⟩
  | .local _ .vmem, ⟨6, _⟩ => ⟨S1x128, .f32⟩
  | .local _ .vmem, ⟨7, _⟩ => ⟨S400x128, .bf16⟩
  | .local _ .vmem, ⟨8, _⟩ => ⟨S400x128, .bf16⟩
  | .local _ .vmem, ⟨9, _⟩ => ⟨S10000x256, .bf16⟩
  | .local _ .vmem, ⟨10, _⟩ => ⟨S400x10000, .f32⟩
  | .local _ .vmem, ⟨11, _⟩ => ⟨S400x10000, .f32⟩
  | .local _ .vmem, ⟨12, _⟩ => ⟨S10000x128, .bf16⟩
  | .local _ .vmem, ⟨13, _⟩ => ⟨S400x128, .f32⟩
  | .local _ .vmem, ⟨14, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S128x128_S128x128_S128x256_d1 : Shape.Concatenates [S128x128, S128x128] S128x256 1
  bitsLt_bf16_f32 : FTy.bits .bf16 < FTy.bits .f32
  concatenates_S128_S128_S256_d0 : Shape.Concatenates [S128, S128] S256 0
  shapeCasts_S256_S1x256 : S256.ShapeCasts S1x256
  bcast_S_S256x128 : S_.BroadcastsInDim S256x128 (![] : Fin 0 → Fin S256x128.rank)
  bcast_S_S1 : S_.BroadcastsInDim S1 (![] : Fin 0 → Fin S1.rank)
  concatenates_S1_S1_S2_d0 : Shape.Concatenates [S1, S1] S2 0
  concatenates_S64_S64_S128_d0 : Shape.Concatenates [S64, S64] S128 0
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  slices_S10000x128_S10000x64_0_0 : S10000x128.Slices ![0, 0] S10000x64
  slices_S10000x128_S10000x64_0_64 : S10000x128.Slices ![0, 64] S10000x64
  scatter_S256x128_S2_S128x64_01_n_01_0_wf : ScatterDims.WF S256x128 S2 S128x64 [0, 1] [] [0, 1] 0
  dot_S10000x128_S128x256_S10000x256_1_0_0_1_n_n_wf : DotDims.WF S10000x128 S128x256 S10000x256 [1] [0] [0] [1] [] []
  dot_S400x10000_S10000x256_S400x256_1_0_0_1_n_n_wf : DotDims.WF S400x10000 S10000x256 S400x256 [1] [0] [0] [1] [] []
  dot_S400x256_S256x128_S400x128_1_0_0_1_n_n_wf : DotDims.WF S400x256 S256x128 S400x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)

variable [Facts₀]

def scatter_S256x128_S2_S128x64_01_n_01_0 : ScatterDims S256x128 S2 S128x64 where
  updateWindowDims := [0, 1]
  insertedWindowDims := []
  scatterDimsToOperandDims := [0, 1]
  indexVectorDim := 0
  wf := scatter_S256x128_S2_S128x64_01_n_01_0_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x64, .f32⟩
  | .hbm, ⟨19, _⟩ => ⟨S1x64, .f32⟩
  | .hbm, ⟨20, _⟩ => ⟨S10000x64, .f32⟩
  | .hbm, ⟨21, _⟩ => ⟨S10000x64, .f32⟩
  | .hbm, ⟨22, _⟩ => ⟨S10000x64, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S_, .f32⟩
  | .hbm, ⟨29, _⟩ => ⟨S10000x128, .f32⟩
  | .hbm, ⟨30, _⟩ => ⟨S10000x128, .f32⟩
  | .hbm, ⟨31, _⟩ => ⟨S10000x64, .f32⟩
  | .hbm, ⟨32, _⟩ => ⟨S1x64, .f32⟩
  | .hbm, ⟨33, _⟩ => ⟨S10000x64, .f32⟩
  | .hbm, ⟨34, _⟩ => ⟨S10000x64, .f32⟩
  | .hbm, ⟨35, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.K.Body0.lean ====
/-
  The first kernel region (for each block of 400 rows of A: H = A · Xc, G = relu(H) · W2 + b2, with the fused
  first-layer features Xc = x · W1 + b1 built once, at the first grid point, in a scratch buffer that persists
  across the grid) at any float instance: what the body leaves in the scratch and in the output block as functions
  of the input blocks, the body's triple in its two control cases (first point / later points), the region
  invariant that carries the scratch's contents from point to point, and the pipeline's proof data with the body
  obligation at every grid point. Stated at a parameter `V`, the buffers' contents when the region is entered.
-/
import proofs.«148140_g63204738728390_cont_9to1c4b_181_2_alg».proof.Proof.Gen.Kernel.Launch
import proofs.«148140_g63204738728390_cont_9to1c4b_181_2_alg».proof.Proof.Gen.Kernel.Skeleton
import proofs.«148140_g63204738728390_cont_9to1c4b_181_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch condition, from the grid coordinate: "this is grid point 0". -/
abbrev cond0 (i : grid0.Coords) : Prop := (Scalar.cmpi .ne (Scalar.extui (Scalar.cmpi .eq (BitVec.ofNat 32 (i 0).val) 0#32)) 0#32) = 1#1
/-- It holds at the first point only — decided over the grid. -/
theorem hcond0 : ∀ t : Fin cfg0.N, cond0 (grid0.coords t) ↔ t.val % 25 = 0 :=
  (by decide +kernel : ∀ t : Fin grid0.N, cond0 (grid0.coords t) ↔ t.val % 25 = 0)

/-- Offsets zero on both axes, however spelt. -/
theorem zero2 : (![0, 0] : Fin 2 → Nat) = fun _ => 0 := by funext a; fin_cases a <;> rfl

/-- The whole-block rectangles the body reads and writes through. -/
abbrev qA : Rect S400x10000 := Rect.unit (s := S400x10000) ![0, 0] S400x10000.size inb_S400x10000_S400x10000_0_0
abbrev qX : Rect S10000x128 := Rect.unit (s := S10000x128) ![0, 0] S10000x128.size inb_S10000x128_S10000x128_0_0
abbrev qW1 : Rect S128x256 := Rect.unit (s := S128x256) ![0, 0] S128x256.size inb_S128x256_S128x256_0_0
abbrev qB1 : Rect S1x256 := Rect.unit (s := S1x256) ![0, 0] S1x256.size inb_S1x256_S1x256_0_0
abbrev qW2 : Rect S256x128 := Rect.unit (s := S256x128) ![0, 0] S256x128.size inb_S256x128_S256x128_0_0
abbrev qB2 : Rect S1x128 := Rect.unit (s := S1x128) ![0, 0] S1x128.size inb_S1x128_S1x128_0_0
abbrev qG : Rect S400x128 := Rect.unit (s := S400x128) ![0, 0] S400x128.size inb_S400x128_S400x128_0_0
abbrev qS : Rect S10000x256 := Rect.unit (s := S10000x256) ![0, 0] S10000x256.size inb_S10000x256_S10000x256_0_0

theorem coverG (p0 : Vec F S400x128 .bf16) (y : S400x128.Idx) :
    ∃ pc ∈ ([⟨qG, p0⟩] : List (View.Piece (Elt F) S400x128 .bf16)), y ∈ pc.1.set :=
  ⟨_, List.mem_singleton_self _, View.mem_set_unit_zero zero2 inb_S400x128_S400x128_0_0 y⟩
theorem coverS (p0 : Vec F S10000x256 .bf16) (y : S10000x256.Idx) :
    ∃ pc ∈ ([⟨qS, p0⟩] : List (View.Piece (Elt F) S10000x256 .bf16)), y ∈ pc.1.set :=
  ⟨_, List.mem_singleton_self _, View.mem_set_unit_zero zero2 inb_S10000x256_S10000x256_0_0 y⟩

set_option maxHeartbeats 2000000 in
/-- The body at the FIRST grid point, on whole memrefs: the scratch, at anything before, ends holding the fused
    first-layer features of the three blocks it was built from; the output block ends at the second-layer payload
    of the block of A, those features, and the second-layer weights and bias. -/
theorem sound_kernel0_first (c : Dev nD) (E : Set ℕ) (i : grid0.Coords) (hc : cond0 i)
    (arg1 : Memref sig .tc .vmem S400x10000 .f32) (harg1 : arg1.IsWhole) (arg2 : Memref sig .tc .vmem S10000x128 .bf16) (harg2 : arg2.IsWhole)
    (arg3 : Memref sig .tc .vmem S128x256 .bf16) (harg3 : arg3.IsWhole) (arg4 : Memref sig .tc .vmem S1x256 .f32) (harg4 : arg4.IsWhole)
    (arg5 : Memref sig .tc .vmem S256x128 .bf16) (harg5 : arg5.IsWhole) (arg6 : Memref sig .tc .vmem S1x128 .f32) (harg6 : arg6.IsWhole)
    (arg7 : Memref sig .tc .vmem S400x128 .bf16) (harg7 : arg7.IsWhole) (arg8 : Memref sig .tc .vmem S10000x256 .bf16) (harg8 : arg8.IsWhole)
    (x0 : Vec F S400x10000 .f32) (x1 : Vec F S10000x128 .bf16) (x2 : Vec F S128x256 .bf16) (x3 : Vec F S1x256 .f32) (x4 : Vec F S256x128 .bf16) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k0_pay2 x0 (k0_pay1 x1 x2 x3) x4 x5)
            ∗ owns (c : Thread nD τ) arg8 fullShare (k0_pay1 x1 x2 x3)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, Hk⟩
  subst hf0; subst hf1; subst hf2; subst hf3; subst hf4; subst hf5
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    refine (View.read_writes_eq_canon _ _ _ (coverG _)).trans ?_
    rw [View.canon_unit_zero zero2, View.readCov_unit_zero _ zero2]
    simp only [View.readAt_eq_ld, View.ld_unit_zero (S := S400x10000) zero2, View.ld_unit_zero (S := S10000x128) zero2,
      View.ld_unit_zero (S := S128x256) zero2, View.ld_unit_zero (S := S1x256) zero2, View.ld_unit_zero (S := S256x128) zero2,
      View.ld_unit_zero (S := S1x128) zero2]
  iexists _; isplitr
  swap; · iexact H8
  ipureintro
  refine (View.read_writes_eq_canon _ _ _ (coverS _)).trans ?_
  rw [View.canon_unit_zero zero2]
  simp only [View.readAt_eq_ld, View.ld_unit_zero (S := S10000x128) zero2,
    View.ld_unit_zero (S := S128x256) zero2, View.ld_unit_zero (S := S1x256) zero2]

set_option maxHeartbeats 2000000 in
/-- The body at a LATER grid point: the scratch is only read; the output block ends at the second-layer payload of
    the block of A, the scratch's contents, and the second-layer weights and bias. -/
theorem sound_kernel0_rest (c : Dev nD) (E : Set ℕ) (i : grid0.Coords) (hc : ¬cond0 i)
    (arg1 : Memref sig .tc .vmem S400x10000 .f32) (harg1 : arg1.IsWhole) (arg2 : Memref sig .tc .vmem S10000x128 .bf16) (harg2 : arg2.IsWhole)
    (arg3 : Memref sig .tc .vmem S128x256 .bf16) (harg3 : arg3.IsWhole) (arg4 : Memref sig .tc .vmem S1x256 .f32) (harg4 : arg4.IsWhole)
    (arg5 : Memref sig .tc .vmem S256x128 .bf16) (harg5 : arg5.IsWhole) (arg6 : Memref sig .tc .vmem S1x128 .f32) (harg6 : arg6.IsWhole)
    (arg7 : Memref sig .tc .vmem S400x128 .bf16) (harg7 : arg7.IsWhole) (arg8 : Memref sig .tc .vmem S10000x256 .bf16) (harg8 : arg8.IsWhole)
    (x0 : Vec F S400x10000 .f32) (x1 : Vec F S10000x128 .bf16) (x2 : Vec F S128x256 .bf16) (x3 : Vec F S1x256 .f32) (x4 : Vec F S256x128 .bf16) (x5 : Vec F S1x128 .f32)
    (xs : Vec F S10000x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k0_pay2 x0 xs x4 x5)
            ∗ owns (c : Thread nD τ) arg8 fullShare xs) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  subst hf0; subst hf1; subst hf2; subst hf3; subst hf4; subst hf5; subst hf8
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    refine (View.read_writes_eq_canon _ _ _ (coverG _)).trans ?_
    rw [View.canon_unit_zero zero2]
    simp only [View.readAt_eq_ld, View.ld_unit_zero (S := S400x10000) zero2, View.ld_unit_zero (S := S10000x256) zero2,
      View.ld_unit_zero (S := S256x128) zero2, View.ld_unit_zero (S := S1x128) zero2]
  iexists f8; isplitr; · ipureintro; rfl
  iexact H8

end Cert.Kernel.Hand

end
-- ==== Proof.K.Region0.lean ====
/-
  The first kernel region's proof data: the invariant that carries the scratch buffer's contents (the fused
  first-layer features, built at the first grid point) from point to point, what each window's staging buffer
  holds after the body, and the body obligation at every grid point.
-/
import proofs.«148140_g63204738728390_cont_9to1c4b_181_2_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
def t0 : Fin cfg0.N := ⟨0, by have h : cfg0.N = 25 := N_0; omega⟩

/-- The scratch buffer, whole. -/
abbrev scM : Memref sig .tc .vmem S10000x256 .bf16 := Memref.whole cc0_scratch0

/-- What the scratch holds from the first point on: the fused first-layer features of the feature, weight and bias
    blocks the first point sees. -/
def xcVal (c : Dev nD) : Vec F S10000x256 .bf16 := k0_pay1 (iblk0 V c 1 t0) (iblk0 V c 2 t0) (iblk0 V c 3 t0)

/-- The core's other scoped buffers that are no staging buffer of this region (the second region's staging
    buffers), each whole at some contents: they ride through the region untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the scratch split off as a memref owned at some contents. -/
theorem PhiA0_eq (c : Dev nD) :
    (Pipeline.ΦA spec0 c : sProp 𝕄)
      = iprop(iprop((∃ d, owns (c : Thread nD τ) scM fullShare d) ∗ Rest0 c) ∗ (∃ r, prngReg c r)) := by
  unfold Pipeline.ΦA Rest0; rw [scopedRest0_eq]; simp only [scM, owns_whole]; try rfl

/-- The region invariant before position `n`: before the first point the class's (the scratch at anything);
    afterwards the scratch at the fused first-layer features, the other scoped buffers and the generator register
    at some state. -/
def PhiS (c : Dev nD) : ℕ → sProp 𝕄
  | 0 => Pipeline.ΦA spec0 c
  | _ + 1 => iprop(iprop(owns (c : Thread nD τ) scM fullShare (xcVal V c) ∗ Rest0 c) ∗ (∃ r, prngReg c r))

theorem PhiS_pos (c : Dev nD) (n : ℕ) (hz : n ≠ 0) :
    PhiS V c n = iprop(iprop(owns (c : Thread nD τ) scM fullShare (xcVal V c) ∗ Rest0 c) ∗ (∃ r, prngReg c r)) := by
  cases n with
  | zero => exact absurd rfl hz
  | succ n => rfl

/-- The proof data of the first pipeline on core `c`: the arrays as the region finds them; after the body each
    input's buffer at its block and the output's at the second-layer payload of the block of A, the scratch's
    features and the second-layer weights and bias; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay2 (iblk0 V c 0 t) (xcVal V c) (iblk0 V c 4 t) (iblk0 V c 5 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = k0_pay2 (iblk0 V c 0 t) (xcVal V c) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

theorem Phi_castSucc (c : Dev nD) (t : Fin cfg0.N) : (dat0 V c).Φ t.castSucc = PhiS V c t.val := by
  dsimp only [dat0]; simp only [Fin.coe_castSucc]
theorem Phi_succ (c : Dev nD) (t : Fin cfg0.N) :
    (dat0 V c).Φ t.succ = iprop(iprop(owns (c : Thread nD τ) scM fullShare (xcVal V c) ∗ Rest0 c) ∗ (∃ r, prngReg c r)) := by
  dsimp only [dat0]; simp only [Fin.val_succ]; rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: at the first point the scratch comes at anything and leaves at the features; at a
    later point it comes and leaves at the features. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    Phi_succ, Phi_castSucc, after0_0, after0_1, after0_2, after0_3, after0_4, after0_5, after0_6]
  have hN : t.val < 25 := lt_of_lt_of_eq t.isLt (show cfg0.N = 25 from N_0)
  by_cases hz : t.val = 0
  · obtain rfl : t = t0 := Fin.ext hz
    rw [show PhiS V c (t0 : Fin cfg0.N).val = Pipeline.ΦA spec0 c from rfl, PhiA0_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t0) ((hcond0 t0).mpr rfl) _ _ _ _ _ _ _ _ _ _ _ _ _ _ _ _
      (iblk0 V c 0 t0) (iblk0 V c 1 t0) (iblk0 V c 2 t0) (iblk0 V c 3 t0) (iblk0 V c 4 t0) (iblk0 V c 5 t0) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_rest c Set.univ (grid0.coords t) (fun h => hz (by have := (hcond0 t).mp h; omega)) _ _ _ _ _ _ _ _ _ _ _ _ _ _ _ _
      (iblk0 V c 0 t) (iblk0 V c 1 t) (iblk0 V c 2 t) (iblk0 V c 3 t) (iblk0 V c 4 t) (iblk0 V c 5 t) (xcVal V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the region is entered with (the class invariant) is the invariant before the first point. -/
theorem hin0 (c : Dev nD) : Pipeline.ΦA spec0 c ⊢ (dat0 V c).Φ 0 := by
  rw [show (dat0 V c).Φ 0 = Pipeline.ΦA spec0 c from rfl]
  try exact Idealize.SL.BI.Entails.refl _

/-- After the last point the invariant gives the class invariant back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS, HR⟩, Hg⟩
  isplitl [HS HR]
  · isplitl [HS]; · iexists _; iexact HS
    iexact HR
  iexact Hg

end Region0

end Cert.Kernel.Hand

end
-- ==== Proof.K.Region1.lean ====
/-
  The second kernel region (the propagation O = A · G, one block of 400 rows of A per grid point) at any float
  instance: what its one store leaves in the output block as a function of the two input blocks, the body's
  triple, and the pipeline's proof data with the body obligation at every grid point. Stated at a parameter `V`,
  the buffers' contents when the region is entered.
-/
import proofs.«148140_g63204738728390_cont_9to1c4b_181_2_alg».proof.Proof.Gen.Kernel.Launch
import proofs.«148140_g63204738728390_cont_9to1c4b_181_2_alg».proof.Proof.Gen.Kernel.Skeleton
import proofs.«148140_g63204738728390_cont_9to1c4b_181_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body reads and writes through. -/
abbrev rA : Rect S400x10000 := Rect.unit (s := S400x10000) ![0, 0] S400x10000.size inb_S400x10000_S400x10000_0_0
abbrev rG : Rect S10000x128 := Rect.unit (s := S10000x128) ![0, 0] S10000x128.size inb_S10000x128_S10000x128_0_0
abbrev rO : Rect S400x128 := Rect.unit (s := S400x128) ![0, 0] S400x128.size inb_S400x128_S400x128_0_0

/-- The output block after the body: the product of the block of A with the whole of G, stored whole. -/
def out1_2 (x0 : Vec F S400x10000 .f32) (x1 : Vec F S10000x128 .bf16) : Vec F S400x128 .f32 :=
  View.canon [⟨rO, k1_pay1 (View.ld x0 rA) (View.ld x1 rG)⟩]

/-- The one store covers the block. -/
theorem cover1_2 (p0 : Vec F S400x128 .f32) (y : S400x128.Idx) :
    ∃ pc ∈ ([⟨rO, p0⟩] : List (View.Piece (Elt F) S400x128 .f32)), y ∈ pc.1.set :=
  View.cover_of_tiled [⟨rO, p0⟩] S400x128.size (by rfl) y

set_option maxHeartbeats 1000000 in
/-- The body on whole staging memrefs: the inputs kept, the output block at `out1_2` of them. -/
theorem sound_kernel1 (c : Dev nD) (E : Set ℕ) (i : grid1.Coords) (arg1 : Memref sig .tc .vmem S400x10000 .f32) (harg1 : arg1.IsWhole)
    (arg2 : Memref sig .tc .vmem S10000x128 .bf16) (harg2 : arg2.IsWhole) (arg3 : Memref sig .tc .vmem S400x128 .f32) (harg3 : arg3.IsWhole)
    (x0 : Vec F S400x10000 .f32) (x1 : Vec F S10000x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__pass2_body i arg1 harg1 arg2 harg2 arg3 harg3) K := by
  simp only [cc1__pass2_body_eq_skeleton]; unfold cc1__pass2_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline on core `c`: the arrays as the region finds them; after the body each
    input's buffer at its block and the output's at `out1_2` of the input blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/-
  The whole program's run, at any float instance: host operations, the first kernel region, the second kernel
  region, host operations. The buffers' contents at each boundary are a fold from the launch memory: a host
  stretch applies its operations; a kernel region leaves its arrays at what its write-backs leave and every other
  buffer as entered. Every weakly fair execution terminates without a fault, and in the final state every unscoped
  buffer holds the last boundary's contents. The frame claim (the argument arrays end unchanged) is read off that.
-/
import proofs.«148140_g63204738728390_cont_9to1c4b_181_2_alg».proof.Proof.K.Region0
import proofs.«148140_g63204738728390_cont_9to1c4b_181_2_alg».proof.Proof.K.Region1
import proofs.«148140_g63204738728390_cont_9to1c4b_181_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host operations before the first region. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the host operations after the second region: the final contents. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W1`, left at `W2`. The class
    invariant is what enters the region's own invariant and what it gives back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The argument arrays end as launched -/

theorem W4_of (c : Dev nD) (b : Ref sig .tc) (h : b ∉ hostOps2_W) : W4 m c (Proc.devRef .tc b) = W3 m c (Proc.devRef .tc b) :=
  StableHlo.after_of_writes_sub hostOps2 _ hostOps2_writes h
theorem W1_of (c : Dev nD) (b : Ref sig .tc) (h : b ∉ hostOps0_W) : W1 m c (Proc.devRef .tc b) = W0 m c (Proc.devRef .tc b) :=
  StableHlo.after_of_writes_sub hostOps0 _ hostOps0_writes h

/-- A buffer no host operation writes and no region stages ends as launched. -/
theorem W4_untouched (c : Dev nD) (b : Ref sig .tc) (h2 : b ∉ hostOps2_W) (h1 : ∀ w, Pipeline.arrRef spec1 w ≠ b)
    (h0 : ∀ w, Pipeline.arrRef spec0 w ≠ b) (hh : b ∉ hostOps0_W) :
    W4 m c (Proc.devRef .tc b) = m ((c : Thread nD τ).loc b) :=
  (W4_of m c b h2).trans <| (W3_of_ne m c b h1).trans <| (W2_of_ne m c b h0).trans <| (W1_of m c b hh).trans rfl

/-- The adjacency, an input window's array of both regions, is handed back unchanged by each. -/
theorem V2_main_arg1 (c : Dev nD) : V2 m c main_arg1 = V1 m c main_arg1 :=
  (W2_arr m c 0).trans (((dat0 (V1 m) c).arrAt_in 0 rfl _).trans (A_eq0 (V1 m) c 0))
theorem V3_main_arg1 (c : Dev nD) : V3 m c main_arg1 = V2 m c main_arg1 :=
  (W3_arr m c 0).trans (((dat1 (V2 m) c).arrAt_in 0 rfl _).trans (A_eq1 (V2 m) c 0))
theorem W4_main_arg1 (c : Dev nD) : W4 m c (Proc.devRef .tc main_arg1) = m ((c : Thread nD τ).loc main_arg1) :=
  (W4_of m c main_arg1 (by decide)).trans <| (V3_main_arg1 m c).trans <| (V2_main_arg1 m c).trans <| (W1_of m c main_arg1 (by decide)).trans rfl

/-- THE FRAME: every weakly fair execution terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W4_untouched m c main_arg0 (by decide) (by decide) (by decide) (by decide)),
     (h c _ (mem_uc main_arg1 (by decide))).trans (W4_main_arg1 m c),
     (h c _ (mem_uc main_arg2 (by decide))).trans (W4_untouched m c main_arg2 (by decide) (by decide) (by decide) (by decide)),
     (h c _ (mem_uc main_arg3 (by decide))).trans (W4_untouched m c main_arg3 (by decide) (by decide) (by decide) (by decide)),
     (h c _ (mem_uc main_arg4 (by decide))).trans (W4_untouched m c main_arg4 (by decide) (by decide) (by decide) (by decide)),
     (h c _ (mem_uc main_arg5 (by decide))).trans (W4_untouched m c main_arg5 (by decide) (by decide) (by decide) (by decide)),
     (h c _ (mem_uc main_arg6 (by decide))).trans (W4_untouched m c main_arg6 (by decide) (by decide) (by decide) (by decide)),
     (h c _ (mem_uc main_arg7 (by decide))).trans (W4_untouched m c main_arg7 (by decide) (by decide) (by decide) (by decide)),
     (h c _ (mem_uc main_arg8 (by decide))).trans (W4_untouched m c main_arg8 (by decide) (by decide) (by decide) (by decide)),
     (h c _ (mem_uc main_arg9 (by decide))).trans (W4_untouched m c main_arg9 (by decide) (by decide) (by decide) (by decide))⟩)
    (run_all m ρ)

end Cert.Kernel.Hand

end
-- ==== Proof.KI.Body0.lean ====
/-
  The first kernel region (for each block of 400 rows of A: H = A · Xc, G = relu(H) · W2 + b2, with the fused
  first-layer features Xc = x · W1 + b1 built once, at the first grid point, in a scratch buffer that persists
  across the grid) at any float instance: what the body leaves in the scratch and in the output block as functions
  of the input blocks, the body's triple in its two control cases (first point / later points), the region
  invariant that carries the scratch's contents from point to point, and the pipeline's proof data with the body
  obligation at every grid point. Stated at a parameter `V`, the buffers' contents when the region is entered.
-/
import proofs.«148140_g63204738728390_cont_9to1c4b_181_2_alg».proof.Proof.Gen.KernelIdeal.Launch
import proofs.«148140_g63204738728390_cont_9to1c4b_181_2_alg».proof.Proof.Gen.KernelIdeal.Skeleton
import proofs.«148140_g63204738728390_cont_9to1c4b_181_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition, from the grid coordinate: "this is grid point 0". -/
abbrev cond0 (i : grid0.Coords) : Prop := (Scalar.cmpi .ne (Scalar.extui (Scalar.cmpi .eq (BitVec.ofNat 32 (i 0).val) 0#32)) 0#32) = 1#1
/-- It holds at the first point only — decided over the grid. -/
theorem hcond0 : ∀ t : Fin cfg0.N, cond0 (grid0.coords t) ↔ t.val % 25 = 0 :=
  (by decide +kernel : ∀ t : Fin grid0.N, cond0 (grid0.coords t) ↔ t.val % 25 = 0)

/-- Offsets zero on both axes, however spelt. -/
theorem zero2 : (![0, 0] : Fin 2 → Nat) = fun _ => 0 := by funext a; fin_cases a <;> rfl

/-- The whole-block rectangles the body reads and writes through. -/
abbrev qA : Rect S400x10000 := Rect.unit (s := S400x10000) ![0, 0] S400x10000.size inb_S400x10000_S400x10000_0_0
abbrev qX : Rect S10000x128 := Rect.unit (s := S10000x128) ![0, 0] S10000x128.size inb_S10000x128_S10000x128_0_0
abbrev qW1 : Rect S128x256 := Rect.unit (s := S128x256) ![0, 0] S128x256.size inb_S128x256_S128x256_0_0
abbrev qB1 : Rect S1x256 := Rect.unit (s := S1x256) ![0, 0] S1x256.size inb_S1x256_S1x256_0_0
abbrev qW2 : Rect S256x128 := Rect.unit (s := S256x128) ![0, 0] S256x128.size inb_S256x128_S256x128_0_0
abbrev qB2 : Rect S1x128 := Rect.unit (s := S1x128) ![0, 0] S1x128.size inb_S1x128_S1x128_0_0
abbrev qG : Rect S400x128 := Rect.unit (s := S400x128) ![0, 0] S400x128.size inb_S400x128_S400x128_0_0
abbrev qS : Rect S10000x256 := Rect.unit (s := S10000x256) ![0, 0] S10000x256.size inb_S10000x256_S10000x256_0_0

theorem coverG (p0 : Vec F S400x128 .bf16) (y : S400x128.Idx) :
    ∃ pc ∈ ([⟨qG, p0⟩] : List (View.Piece (Elt F) S400x128 .bf16)), y ∈ pc.1.set :=
  ⟨_, List.mem_singleton_self _, View.mem_set_unit_zero zero2 inb_S400x128_S400x128_0_0 y⟩
theorem coverS (p0 : Vec F S10000x256 .bf16) (y : S10000x256.Idx) :
    ∃ pc ∈ ([⟨qS, p0⟩] : List (View.Piece (Elt F) S10000x256 .bf16)), y ∈ pc.1.set :=
  ⟨_, List.mem_singleton_self _, View.mem_set_unit_zero zero2 inb_S10000x256_S10000x256_0_0 y⟩

set_option maxHeartbeats 2000000 in
/-- The body at the FIRST grid point, on whole memrefs: the scratch, at anything before, ends holding the fused
    first-layer features of the three blocks it was built from; the output block ends at the second-layer payload
    of the block of A, those features, and the second-layer weights and bias. -/
theorem sound_kernel0_first (c : Dev nD) (E : Set ℕ) (i : grid0.Coords) (hc : cond0 i)
    (arg1 : Memref sig .tc .vmem S400x10000 .f32) (harg1 : arg1.IsWhole) (arg2 : Memref sig .tc .vmem S10000x128 .bf16) (harg2 : arg2.IsWhole)
    (arg3 : Memref sig .tc .vmem S128x256 .bf16) (harg3 : arg3.IsWhole) (arg4 : Memref sig .tc .vmem S1x256 .f32) (harg4 : arg4.IsWhole)
    (arg5 : Memref sig .tc .vmem S256x128 .bf16) (harg5 : arg5.IsWhole) (arg6 : Memref sig .tc .vmem S1x128 .f32) (harg6 : arg6.IsWhole)
    (arg7 : Memref sig .tc .vmem S400x128 .bf16) (harg7 : arg7.IsWhole) (arg8 : Memref sig .tc .vmem S10000x256 .bf16) (harg8 : arg8.IsWhole)
    (x0 : Vec F S400x10000 .f32) (x1 : Vec F S10000x128 .bf16) (x2 : Vec F S128x256 .bf16) (x3 : Vec F S1x256 .f32) (x4 : Vec F S256x128 .bf16) (x5 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k0_pay2 x0 (k0_pay1 x1 x2 x3) x4 x5)
            ∗ owns (c : Thread nD τ) arg8 fullShare (k0_pay1 x1 x2 x3)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, Hk⟩
  subst hf0; subst hf1; subst hf2; subst hf3; subst hf4; subst hf5
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    refine (View.read_writes_eq_canon _ _ _ (coverG _)).trans ?_
    rw [View.canon_unit_zero zero2, View.readCov_unit_zero _ zero2]
    simp only [View.readAt_eq_ld, View.ld_unit_zero (S := S400x10000) zero2, View.ld_unit_zero (S := S10000x128) zero2,
      View.ld_unit_zero (S := S128x256) zero2, View.ld_unit_zero (S := S1x256) zero2, View.ld_unit_zero (S := S256x128) zero2,
      View.ld_unit_zero (S := S1x128) zero2]
  iexists _; isplitr
  swap; · iexact H8
  ipureintro
  refine (View.read_writes_eq_canon _ _ _ (coverS _)).trans ?_
  rw [View.canon_unit_zero zero2]
  simp only [View.readAt_eq_ld, View.ld_unit_zero (S := S10000x128) zero2,
    View.ld_unit_zero (S := S128x256) zero2, View.ld_unit_zero (S := S1x256) zero2]

set_option maxHeartbeats 2000000 in
/-- The body at a LATER grid point: the scratch is only read; the output block ends at the second-layer payload of
    the block of A, the scratch's contents, and the second-layer weights and bias. -/
theorem sound_kernel0_rest (c : Dev nD) (E : Set ℕ) (i : grid0.Coords) (hc : ¬cond0 i)
    (arg1 : Memref sig .tc .vmem S400x10000 .f32) (harg1 : arg1.IsWhole) (arg2 : Memref sig .tc .vmem S10000x128 .bf16) (harg2 : arg2.IsWhole)
    (arg3 : Memref sig .tc .vmem S128x256 .bf16) (harg3 : arg3.IsWhole) (arg4 : Memref sig .tc .vmem S1x256 .f32) (harg4 : arg4.IsWhole)
    (arg5 : Memref sig .tc .vmem S256x128 .bf16) (harg5 : arg5.IsWhole) (arg6 : Memref sig .tc .vmem S1x128 .f32) (harg6 : arg6.IsWhole)
    (arg7 : Memref sig .tc .vmem S400x128 .bf16) (harg7 : arg7.IsWhole) (arg8 : Memref sig .tc .vmem S10000x256 .bf16) (harg8 : arg8.IsWhole)
    (x0 : Vec F S400x10000 .f32) (x1 : Vec F S10000x128 .bf16) (x2 : Vec F S128x256 .bf16) (x3 : Vec F S1x256 .f32) (x4 : Vec F S256x128 .bf16) (x5 : Vec F S1x128 .f32)
    (xs : Vec F S10000x256 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k0_pay2 x0 xs x4 x5)
            ∗ owns (c : Thread nD τ) arg8 fullShare xs) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  subst hf0; subst hf1; subst hf2; subst hf3; subst hf4; subst hf5; subst hf8
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    refine (View.read_writes_eq_canon _ _ _ (coverG _)).trans ?_
    rw [View.canon_unit_zero zero2]
    simp only [View.readAt_eq_ld, View.ld_unit_zero (S := S400x10000) zero2, View.ld_unit_zero (S := S10000x256) zero2,
      View.ld_unit_zero (S := S256x128) zero2, View.ld_unit_zero (S := S1x128) zero2]
  iexists f8; isplitr; · ipureintro; rfl
  iexact H8

end Cert.KernelIdeal.Hand

end
-- ==== Proof.KI.Region0.lean ====
/-
  The first kernel region's proof data: the invariant that carries the scratch buffer's contents (the fused
  first-layer features, built at the first grid point) from point to point, what each window's staging buffer
  holds after the body, and the body obligation at every grid point.
-/
import proofs.«148140_g63204738728390_cont_9to1c4b_181_2_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
def t0 : Fin cfg0.N := ⟨0, by have h : cfg0.N = 25 := N_0; omega⟩

/-- The scratch buffer, whole. -/
abbrev scM : Memref sig .tc .vmem S10000x256 .bf16 := Memref.whole cc0_scratch0

/-- What the scratch holds from the first point on: the fused first-layer features of the feature, weight and bias
    blocks the first point sees. -/
def xcVal (c : Dev nD) : Vec F S10000x256 .bf16 := k0_pay1 (iblk0 V c 1 t0) (iblk0 V c 2 t0) (iblk0 V c 3 t0)

/-- The core's other scoped buffers that are no staging buffer of this region (the second region's staging
    buffers), each whole at some contents: they ride through the region untouched. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the scratch split off as a memref owned at some contents. -/
theorem PhiA0_eq (c : Dev nD) :
    (Pipeline.ΦA spec0 c : sProp 𝕄)
      = iprop(iprop((∃ d, owns (c : Thread nD τ) scM fullShare d) ∗ Rest0 c) ∗ (∃ r, prngReg c r)) := by
  unfold Pipeline.ΦA Rest0; rw [scopedRest0_eq]; simp only [scM, owns_whole]; try rfl

/-- The region invariant before position `n`: before the first point the class's (the scratch at anything);
    afterwards the scratch at the fused first-layer features, the other scoped buffers and the generator register
    at some state. -/
def PhiS (c : Dev nD) : ℕ → sProp 𝕄
  | 0 => Pipeline.ΦA spec0 c
  | _ + 1 => iprop(iprop(owns (c : Thread nD τ) scM fullShare (xcVal V c) ∗ Rest0 c) ∗ (∃ r, prngReg c r))

theorem PhiS_pos (c : Dev nD) (n : ℕ) (hz : n ≠ 0) :
    PhiS V c n = iprop(iprop(owns (c : Thread nD τ) scM fullShare (xcVal V c) ∗ Rest0 c) ∗ (∃ r, prngReg c r)) := by
  cases n with
  | zero => exact absurd rfl hz
  | succ n => rfl

/-- The proof data of the first pipeline on core `c`: the arrays as the region finds them; after the body each
    input's buffer at its block and the output's at the second-layer payload of the block of A, the scratch's
    features and the second-layer weights and bias; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay2 (iblk0 V c 0 t) (xcVal V c) (iblk0 V c 4 t) (iblk0 V c 5 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = k0_pay2 (iblk0 V c 0 t) (xcVal V c) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

theorem Phi_castSucc (c : Dev nD) (t : Fin cfg0.N) : (dat0 V c).Φ t.castSucc = PhiS V c t.val := by
  dsimp only [dat0]; simp only [Fin.coe_castSucc]
theorem Phi_succ (c : Dev nD) (t : Fin cfg0.N) :
    (dat0 V c).Φ t.succ = iprop(iprop(owns (c : Thread nD τ) scM fullShare (xcVal V c) ∗ Rest0 c) ∗ (∃ r, prngReg c r)) := by
  dsimp only [dat0]; simp only [Fin.val_succ]; rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: at the first point the scratch comes at anything and leaves at the features; at a
    later point it comes and leaves at the features. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    Phi_succ, Phi_castSucc, after0_0, after0_1, after0_2, after0_3, after0_4, after0_5, after0_6]
  have hN : t.val < 25 := lt_of_lt_of_eq t.isLt (show cfg0.N = 25 from N_0)
  by_cases hz : t.val = 0
  · obtain rfl : t = t0 := Fin.ext hz
    rw [show PhiS V c (t0 : Fin cfg0.N).val = Pipeline.ΦA spec0 c from rfl, PhiA0_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t0) ((hcond0 t0).mpr rfl) _ _ _ _ _ _ _ _ _ _ _ _ _ _ _ _
      (iblk0 V c 0 t0) (iblk0 V c 1 t0) (iblk0 V c 2 t0) (iblk0 V c 3 t0) (iblk0 V c 4 t0) (iblk0 V c 5 t0) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_rest c Set.univ (grid0.coords t) (fun h => hz (by have := (hcond0 t).mp h; omega)) _ _ _ _ _ _ _ _ _ _ _ _ _ _ _ _
      (iblk0 V c 0 t) (iblk0 V c 1 t) (iblk0 V c 2 t) (iblk0 V c 3 t) (iblk0 V c 4 t) (iblk0 V c 5 t) (xcVal V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the region is entered with (the class invariant) is the invariant before the first point. -/
theorem hin0 (c : Dev nD) : Pipeline.ΦA spec0 c ⊢ (dat0 V c).Φ 0 := by
  rw [show (dat0 V c).Φ 0 = Pipeline.ΦA spec0 c from rfl]
  try exact Idealize.SL.BI.Entails.refl _

/-- After the last point the invariant gives the class invariant back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS, HR⟩, Hg⟩
  isplitl [HS HR]
  · isplitl [HS]; · iexists _; iexact HS
    iexact HR
  iexact Hg

end Region0

end Cert.KernelIdeal.Hand

end
-- ==== Proof.KI.Region1.lean ====
/-
  The second kernel region (the propagation O = A · G, one block of 400 rows of A per grid point) at any float
  instance: what its one store leaves in the output block as a function of the two input blocks, the body's
  triple, and the pipeline's proof data with the body obligation at every grid point. Stated at a parameter `V`,
  the buffers' contents when the region is entered.
-/
import proofs.«148140_g63204738728390_cont_9to1c4b_181_2_alg».proof.Proof.Gen.KernelIdeal.Launch
import proofs.«148140_g63204738728390_cont_9to1c4b_181_2_alg».proof.Proof.Gen.KernelIdeal.Skeleton
import proofs.«148140_g63204738728390_cont_9to1c4b_181_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body reads and writes through. -/
abbrev rA : Rect S400x10000 := Rect.unit (s := S400x10000) ![0, 0] S400x10000.size inb_S400x10000_S400x10000_0_0
abbrev rG : Rect S10000x128 := Rect.unit (s := S10000x128) ![0, 0] S10000x128.size inb_S10000x128_S10000x128_0_0
abbrev rO : Rect S400x128 := Rect.unit (s := S400x128) ![0, 0] S400x128.size inb_S400x128_S400x128_0_0

/-- The output block after the body: the product of the block of A with the whole of G, stored whole. -/
def out1_2 (x0 : Vec F S400x10000 .f32) (x1 : Vec F S10000x128 .bf16) : Vec F S400x128 .f32 :=
  View.canon [⟨rO, k1_pay1 (View.ld x0 rA) (View.ld x1 rG)⟩]

/-- The one store covers the block. -/
theorem cover1_2 (p0 : Vec F S400x128 .f32) (y : S400x128.Idx) :
    ∃ pc ∈ ([⟨rO, p0⟩] : List (View.Piece (Elt F) S400x128 .f32)), y ∈ pc.1.set :=
  View.cover_of_tiled [⟨rO, p0⟩] S400x128.size (by rfl) y

set_option maxHeartbeats 1000000 in
/-- The body on whole staging memrefs: the inputs kept, the output block at `out1_2` of them. -/
theorem sound_kernel1 (c : Dev nD) (E : Set ℕ) (i : grid1.Coords) (arg1 : Memref sig .tc .vmem S400x10000 .f32) (harg1 : arg1.IsWhole)
    (arg2 : Memref sig .tc .vmem S10000x128 .bf16) (harg2 : arg2.IsWhole) (arg3 : Memref sig .tc .vmem S400x128 .f32) (harg3 : arg3.IsWhole)
    (x0 : Vec F S400x10000 .f32) (x1 : Vec F S10000x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__pass2_body i arg1 harg1 arg2 harg2 arg3 harg3) K := by
  simp only [cc1__pass2_body_eq_skeleton]; unfold cc1__pass2_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline on core `c`: the arrays as the region finds them; after the body each
    input's buffer at its block and the output's at `out1_2` of the input blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The whole program's run, at any float instance: host operations, the first kernel region, the second kernel
  region, host operations. The buffers' contents at each boundary are a fold from the launch memory: a host
  stretch applies its operations; a kernel region leaves its arrays at what its write-backs leave and every other
  buffer as entered. Every weakly fair execution terminates without a fault, and in the final state every unscoped
  buffer holds the last boundary's contents. The frame claim (the argument arrays end unchanged) is read off that.
-/
import proofs.«148140_g63204738728390_cont_9to1c4b_181_2_alg».proof.Proof.KI.Region0
import proofs.«148140_g63204738728390_cont_9to1c4b_181_2_alg».proof.Proof.KI.Region1
import proofs.«148140_g63204738728390_cont_9to1c4b_181_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host operations before the first region. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the host operations after the second region: the final contents. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region over the thread state: entered from every unscoped buffer at `W1`, left at `W2`. The class
    invariant is what enters the region's own invariant and what it gives back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The argument arrays end as launched -/

theorem W4_of (c : Dev nD) (b : Ref sig .tc) (h : b ∉ hostOps2_W) : W4 m c (Proc.devRef .tc b) = W3 m c (Proc.devRef .tc b) :=
  StableHlo.after_of_writes_sub hostOps2 _ hostOps2_writes h
theorem W1_of (c : Dev nD) (b : Ref sig .tc) (h : b ∉ hostOps0_W) : W1 m c (Proc.devRef .tc b) = W0 m c (Proc.devRef .tc b) :=
  StableHlo.after_of_writes_sub hostOps0 _ hostOps0_writes h

/-- A buffer no host operation writes and no region stages ends as launched. -/
theorem W4_untouched (c : Dev nD) (b : Ref sig .tc) (h2 : b ∉ hostOps2_W) (h1 : ∀ w, Pipeline.arrRef spec1 w ≠ b)
    (h0 : ∀ w, Pipeline.arrRef spec0 w ≠ b) (hh : b ∉ hostOps0_W) :
    W4 m c (Proc.devRef .tc b) = m ((c : Thread nD τ).loc b) :=
  (W4_of m c b h2).trans <| (W3_of_ne m c b h1).trans <| (W2_of_ne m c b h0).trans <| (W1_of m c b hh).trans rfl

/-- The adjacency, an input window's array of both regions, is handed back unchanged by each. -/
theorem V2_main_arg1 (c : Dev nD) : V2 m c main_arg1 = V1 m c main_arg1 :=
  (W2_arr m c 0).trans (((dat0 (V1 m) c).arrAt_in 0 rfl _).trans (A_eq0 (V1 m) c 0))
theorem V3_main_arg1 (c : Dev nD) : V3 m c main_arg1 = V2 m c main_arg1 :=
  (W3_arr m c 0).trans (((dat1 (V2 m) c).arrAt_in 0 rfl _).trans (A_eq1 (V2 m) c 0))
theorem W4_main_arg1 (c : Dev nD) : W4 m c (Proc.devRef .tc main_arg1) = m ((c : Thread nD τ).loc main_arg1) :=
  (W4_of m c main_arg1 (by decide)).trans <| (V3_main_arg1 m c).trans <| (V2_main_arg1 m c).trans <| (W1_of m c main_arg1 (by decide)).trans rfl

/-- THE FRAME: every weakly fair execution terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W4_untouched m c main_arg0 (by decide) (by decide) (by decide) (by decide)),
     (h c _ (mem_uc main_arg1 (by decide))).trans (W4_main_arg1 m c),
     (h c _ (mem_uc main_arg2 (by decide))).trans (W4_untouched m c main_arg2 (by decide) (by decide) (by decide) (by decide)),
     (h c _ (mem_uc main_arg3 (by decide))).trans (W4_untouched m c main_arg3 (by decide) (by decide) (by decide) (by decide)),
     (h c _ (mem_uc main_arg4 (by decide))).trans (W4_untouched m c main_arg4 (by decide) (by decide) (by decide) (by decide)),
     (h c _ (mem_uc main_arg5 (by decide))).trans (W4_untouched m c main_arg5 (by decide) (by decide) (by decide) (by decide)),
     (h c _ (mem_uc main_arg6 (by decide))).trans (W4_untouched m c main_arg6 (by decide) (by decide) (by decide) (by decide)),
     (h c _ (mem_uc main_arg7 (by decide))).trans (W4_untouched m c main_arg7 (by decide) (by decide) (by decide) (by decide)),
     (h c _ (mem_uc main_arg8 (by decide))).trans (W4_untouched m c main_arg8 (by decide) (by decide) (by decide) (by decide)),
     (h c _ (mem_uc main_arg9 (by decide))).trans (W4_untouched m c main_arg9 (by decide) (by decide) (by decide) (by decide))⟩)
    (run_all m ρ)

end Cert.KernelIdeal.Hand

end
-- ==== Proof.Spec.lean ====
/-
  Two 2-layer graph convolutions over one dense adjacency, as plain functions on the extended reals.

  One network, for node features `x` (10000 × 128), adjacency `A` (10000 × 10000), weights `W1` (128 × 128),
  `W2` (128 × 64) and biases `b1`, `b2`:   out = A · (relu(A · (x · W1 + b1)) · W2 + b2).
  The two networks (a, b) share `x` and `A`.

  The FUSED form computes both at once: the first-layer weights side by side (128 × 256), the second-layer weights
  block-diagonal (256 × 128, zero off the two diagonal blocks), the biases concatenated; the left 64 columns of the
  result are network a's output, the right 64 columns network b's. Every sum here is a finite sum on the extended
  reals, where addition is commutative and associative and `x * 0 = 0` for every `x`; so the two forms agree with no
  finiteness assumption.
-/
import Idealize.ShloMosaic.PureOps.Ideal
import Idealize.ShloMosaic.Lib.ValueIdx

noncomputable section

namespace Cert.Coteach

open Idealize.ShloMosaic Idealize.ShloMosaic.ValueIdx

/-- A matrix of extended reals indexed by a rank-2 shape's indices. -/
abbrev Mat (a b : Nat) : Type := (⟨2, ![a, b]⟩ : Shape).Idx → EReal
/-- A vector of extended reals indexed by a rank-1 shape's indices. -/
abbrev Vect (a : Nat) : Type := (⟨1, ![a]⟩ : Shape).Idx → EReal

/-! ## One network, layer by layer -/

/-- The first linear layer: `x · W1 + b1` at row `r`, column `j`. -/
def lin1 (x : Mat 10000 128) (W1 : Mat 128 128) (b1 : Vect 128) (r : Fin 10000) (j : Fin 128) : EReal :=
  (∑ k : Fin 128, x (ix2 r k) * W1 (ix2 k j)) + b1 (ix1 j)

/-- Propagation along the graph: `A · h` at row `r`, column `j`, for any number of columns. -/
def prop {n : Nat} (A : Mat 10000 10000) (h : Fin 10000 → Fin n → EReal) (r : Fin 10000) (j : Fin n) : EReal :=
  ∑ k : Fin 10000, A (ix2 r k) * h k j

/-- The second linear layer after the rectifier: `relu(h) · W2 + b2` at row `r`, column `j`. -/
def lin2 (h : Fin 10000 → Fin 128 → EReal) (W2 : Mat 128 64) (b2 : Vect 64) (r : Fin 10000) (j : Fin 64) : EReal :=
  (∑ k : Fin 128, max (h r k) 0 * W2 (ix2 k j)) + b2 (ix1 j)

/-- One network's output by coordinates. -/
def gcnAt (x : Mat 10000 128) (A : Mat 10000 10000) (W1 : Mat 128 128) (b1 : Vect 128) (W2 : Mat 128 64) (b2 : Vect 64)
    (r : Fin 10000) (j : Fin 64) : EReal :=
  prop A (lin2 (prop A (lin1 x W1 b1)) W2 b2) r j

/-- One network's output as an array. -/
def gcn (x : Mat 10000 128) (A : Mat 10000 10000) (W1 : Mat 128 128) (b1 : Vect 128) (W2 : Mat 128 64) (b2 : Vect 64) :
    Mat 10000 64 :=
  fun i => gcnAt x A W1 b1 W2 b2 (i 0) (i 1)

/-! ## The fused form -/

/-- The first-layer weights side by side: columns 0–127 are `W1a`'s, columns 128–255 are `W1b`'s. -/
def w1c (W1a W1b : Mat 128 128) (k : Fin 128) (j : Fin 256) : EReal :=
  if h : j.val < 128 then W1a (ix2 k ⟨j.val, h⟩) else W1b (ix2 k ⟨j.val - 128, by have := j.isLt; omega⟩)

/-- The first-layer biases concatenated. -/
def b1c (b1a b1b : Vect 128) (j : Fin 256) : EReal :=
  if h : j.val < 128 then b1a (ix1 ⟨j.val, h⟩) else b1b (ix1 ⟨j.val - 128, by have := j.isLt; omega⟩)

/-- The second-layer weights block-diagonal: rows 0–127 × columns 0–63 are `W2a`, rows 128–255 × columns 64–127
    are `W2b`, every other entry is zero. -/
def w2c (W2a W2b : Mat 128 64) (k : Fin 256) (j : Fin 128) : EReal :=
  if hk : k.val < 128 then
    (if hj : j.val < 64 then W2a (ix2 ⟨k.val, hk⟩ ⟨j.val, hj⟩) else 0)
  else
    (if hj : j.val < 64 then 0 else W2b (ix2 ⟨k.val - 128, by have := k.isLt; omega⟩ ⟨j.val - 64, by have := j.isLt; omega⟩))

/-- The second-layer biases concatenated. -/
def b2c (b2a b2b : Vect 64) (j : Fin 128) : EReal :=
  if h : j.val < 64 then b2a (ix1 ⟨j.val, h⟩) else b2b (ix1 ⟨j.val - 64, by have := j.isLt; omega⟩)

/-- The fused first linear layer (10000 × 256). -/
def xcF (x : Mat 10000 128) (W1a W1b : Mat 128 128) (b1a b1b : Vect 128) (r : Fin 10000) (j : Fin 256) : EReal :=
  (∑ k : Fin 128, x (ix2 r k) * w1c W1a W1b k j) + b1c b1a b1b j

/-- The fused second linear layer after the rectifier (10000 × 128). -/
def gF (h : Fin 10000 → Fin 256 → EReal) (W2a W2b : Mat 128 64) (b2a b2b : Vect 64) (r : Fin 10000) (j : Fin 128) : EReal :=
  (∑ k : Fin 256, max (h r k) 0 * w2c W2a W2b k j) + b2c b2a b2b j

/-- The fused second-layer features `G` (10000 × 128): what the first pass leaves. -/
def fusedG (x : Mat 10000 128) (A : Mat 10000 10000) (W1a : Mat 128 128) (b1a : Vect 128) (W2a : Mat 128 64) (b2a : Vect 64)
    (W1b : Mat 128 128) (b1b : Vect 128) (W2b : Mat 128 64) (b2b : Vect 64) (r : Fin 10000) (j : Fin 128) : EReal :=
  gF (prop A (xcF x W1a W1b b1a b1b)) W2a W2b b2a b2b r j

/-- The fused result `O = A · G` (10000 × 128). -/
def fusedO (x : Mat 10000 128) (A : Mat 10000 10000) (W1a : Mat 128 128) (b1a : Vect 128) (W2a : Mat 128 64) (b2a : Vect 64)
    (W1b : Mat 128 128) (b1b : Vect 128) (W2b : Mat 128 64) (b2b : Vect 64) (r : Fin 10000) (j : Fin 128) : EReal :=
  prop A (fusedG x A W1a b1a W2a b2a W1b b1b W2b b2b) r j

/-- The left 64 columns of the fused result. -/
def fusedOut1 (x : Mat 10000 128) (A : Mat 10000 10000) (W1a : Mat 128 128) (b1a : Vect 128) (W2a : Mat 128 64) (b2a : Vect 64)
    (W1b : Mat 128 128) (b1b : Vect 128) (W2b : Mat 128 64) (b2b : Vect 64) : Mat 10000 64 :=
  fun i => fusedO x A W1a b1a W2a b2a W1b b1b W2b b2b (i 0) ⟨(i 1).val, Nat.lt_of_lt_of_le (idx2_lt1 i) (by decide)⟩

/-- The right 64 columns of the fused result. -/
def fusedOut2 (x : Mat 10000 128) (A : Mat 10000 10000) (W1a : Mat 128 128) (b1a : Vect 128) (W2a : Mat 128 64) (b2a : Vect 64)
    (W1b : Mat 128 128) (b1b : Vect 128) (W2b : Mat 128 64) (b2b : Vect 64) : Mat 10000 64 :=
  fun i => fusedO x A W1a b1a W2a b2a W1b b1b W2b b2b (i 0) ⟨(i 1).val + 64, by have := idx2_lt1 i; omega⟩

end Cert.Coteach

end
-- ==== Proof.RefValue.lean ====
/-
  The reference program at the ideal values, read as mathematics: each of its two results is one two-layer graph
  convolution  A · (relu(A · (x · W1 + b1)) · W2 + b2)  of its arguments, index by index (`Cert.Coteach.gcn`).
  The host's `dot_general` at the ideal values is the plain sum over the contracted axis, its broadcasts read their
  operand at the matching coordinate, the zero literal is the extended real `0`, and `maximum`/`add` are `max`/`+`.
-/
import proofs.«148140_g63204738728390_cont_9to1c4b_181_2_alg».proof.Proof.Gen.ReferenceIdeal.Read
import proofs.«148140_g63204738728390_cont_9to1c4b_181_2_alg».proof.Proof.Spec

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.Coteach

/-! ## The operand indices of each contraction, at an index given by its two coordinates -/

theorem lidx_v0 (r : Fin 10000) (j k : Fin 128) : lidx_main_v0 (ix2 r j) k = ix2 r k := by
  funext a; match a with | ⟨0, _⟩ => rfl | ⟨1, _⟩ => rfl
theorem ridx_v0 (r : Fin 10000) (j k : Fin 128) : ridx_main_v0 (ix2 r j) k = ix2 k j := by
  funext a; match a with | ⟨0, _⟩ => rfl | ⟨1, _⟩ => rfl
theorem lidx_v4 (r : Fin 10000) (j : Fin 128) (k : Fin 10000) : lidx_main_v4 (ix2 r j) k = ix2 r k := by
  funext a; match a with | ⟨0, _⟩ => rfl | ⟨1, _⟩ => rfl
theorem ridx_v4 (r : Fin 10000) (j : Fin 128) (k : Fin 10000) : ridx_main_v4 (ix2 r j) k = ix2 k j := by
  funext a; match a with | ⟨0, _⟩ => rfl | ⟨1, _⟩ => rfl
theorem lidx_v7 (r : Fin 10000) (j : Fin 64) (k : Fin 128) : lidx_main_v7 (ix2 r j) k = ix2 r k := by
  funext a; match a with | ⟨0, _⟩ => rfl | ⟨1, _⟩ => rfl
theorem ridx_v7 (r : Fin 10000) (j : Fin 64) (k : Fin 128) : ridx_main_v7 (ix2 r j) k = ix2 k j := by
  funext a; match a with | ⟨0, _⟩ => rfl | ⟨1, _⟩ => rfl
theorem lidx_v11 (r : Fin 10000) (j : Fin 64) (k : Fin 10000) : lidx_main_v11 (ix2 r j) k = ix2 r k := by
  funext a; match a with | ⟨0, _⟩ => rfl | ⟨1, _⟩ => rfl
theorem ridx_v11 (r : Fin 10000) (j : Fin 64) (k : Fin 10000) : ridx_main_v11 (ix2 r j) k = ix2 k j := by
  funext a; match a with | ⟨0, _⟩ => rfl | ⟨1, _⟩ => rfl

/-! ## The bias rows, broadcast along the nodes -/

theorem v2_at (b1 : Vect 128) (r : Fin 10000) (j : Fin 128) : val_main_v2 (F := Ideal) b1 (ix2 r j) = b1 (ix1 j) := by
  rw [val_main_v2_apply, val_main_v1_apply]
  refine congrArg b1 ?_
  funext a; match a with | ⟨0, _⟩ => rfl

theorem v9_at (b2 : Vect 64) (r : Fin 10000) (j : Fin 64) : val_main_v9 (F := Ideal) b2 (ix2 r j) = b2 (ix1 j) := by
  rw [val_main_v9_apply, val_main_v8_apply]
  refine congrArg b2 ?_
  funext a; match a with | ⟨0, _⟩ => rfl

/-- The broadcast zero literal is the extended real `0` everywhere. -/
theorem v5_at (i : S10000x128.Idx) : val_main_v5 (F := Ideal) i = 0 := by
  rw [val_main_v5_apply, val_main_cst_apply]
  exact Ideal.ofBits_zero_f32

/-! ## The stages of one network -/

/-- `x · W1 + b1`. -/
theorem v3_at (x : Mat 10000 128) (W1 : Mat 128 128) (b1 : Vect 128) (r : Fin 10000) (j : Fin 128) :
    val_main_v3 (F := Ideal) x W1 b1 (ix2 r j) = lin1 x W1 b1 r j := by
  rw [val_main_v3_apply, val_main_v0_apply, v2_at]
  show (∑ k : Fin 128, x (lidx_main_v0 (ix2 r j) k) * W1 (ridx_main_v0 (ix2 r j) k)) + b1 (ix1 j) = _
  unfold lin1
  refine congrArg (· + b1 (ix1 j)) (Finset.sum_congr rfl fun k _ => ?_)
  rw [lidx_v0, ridx_v0]

/-- `A · (x · W1 + b1)`. -/
theorem v4_at (x : Mat 10000 128) (A : Mat 10000 10000) (W1 : Mat 128 128) (b1 : Vect 128) (r : Fin 10000) (j : Fin 128) :
    val_main_v4 (F := Ideal) x A W1 b1 (ix2 r j) = prop A (lin1 x W1 b1) r j := by
  rw [val_main_v4_apply]
  unfold prop
  refine Finset.sum_congr rfl fun k _ => ?_
  rw [lidx_v4, ridx_v4, v3_at]

/-- `relu(A · (x · W1 + b1))`. -/
theorem v6_at (x : Mat 10000 128) (A : Mat 10000 10000) (W1 : Mat 128 128) (b1 : Vect 128) (r : Fin 10000) (j : Fin 128) :
    val_main_v6 (F := Ideal) x A W1 b1 (ix2 r j) = max (prop A (lin1 x W1 b1) r j) 0 := by
  rw [val_main_v6_apply, v4_at, v5_at]
  rfl

/-- `relu(…) · W2 + b2`. -/
theorem v10_at (x : Mat 10000 128) (A : Mat 10000 10000) (W1 : Mat 128 128) (b1 : Vect 128) (W2 : Mat 128 64) (b2 : Vect 64)
    (r : Fin 10000) (j : Fin 64) :
    val_main_v10 (F := Ideal) x A W1 b1 W2 b2 (ix2 r j) = lin2 (prop A (lin1 x W1 b1)) W2 b2 r j := by
  rw [val_main_v10_apply, val_main_v7_apply, v9_at]
  show (∑ k : Fin 128, val_main_v6 (F := Ideal) x A W1 b1 (lidx_main_v7 (ix2 r j) k) * W2 (ridx_main_v7 (ix2 r j) k)) + b2 (ix1 j) = _
  unfold lin2
  refine congrArg (· + b2 (ix1 j)) (Finset.sum_congr rfl fun k _ => ?_)
  rw [lidx_v7, ridx_v7, v6_at]

/-- The whole network at a row and a column. -/
theorem v11_at (x : Mat 10000 128) (A : Mat 10000 10000) (W1 : Mat 128 128) (b1 : Vect 128) (W2 : Mat 128 64) (b2 : Vect 64)
    (r : Fin 10000) (j : Fin 64) :
    val_main_v11 (F := Ideal) x A W1 b1 W2 b2 (ix2 r j) = gcnAt x A W1 b1 W2 b2 r j := by
  rw [val_main_v11_apply]
  unfold gcnAt prop
  refine Finset.sum_congr rfl fun k _ => ?_
  rw [lidx_v11, ridx_v11, v10_at]
  rfl

/-- The first result's term is the network's output array. -/
theorem v11_eq (x : Mat 10000 128) (A : Mat 10000 10000) (W1 : Mat 128 128) (b1 : Vect 128) (W2 : Mat 128 64) (b2 : Vect 64) :
    val_main_v11 (F := Ideal) x A W1 b1 W2 b2 = gcn x A W1 b1 W2 b2 := by
  funext i
  refine (congrArg (val_main_v11 (F := Ideal) x A W1 b1 W2 b2) (eq_ix2 i)).trans ?_
  exact v11_at x A W1 b1 W2 b2 (i 0) (i 1)

/-- The second result's operations are the first's, applied to the second network's parameters. -/
theorem v23_eq (x : Mat 10000 128) (A : Mat 10000 10000) (W1 : Mat 128 128) (b1 : Vect 128) (W2 : Mat 128 64) (b2 : Vect 64) :
    val_main_v23 (F := Ideal) x A W1 b1 W2 b2 = gcn x A W1 b1 W2 b2 :=
  (show val_main_v23 (F := Ideal) x A W1 b1 W2 b2 = val_main_v11 (F := Ideal) x A W1 b1 W2 b2 from rfl).trans (v11_eq x A W1 b1 W2 b2)

/-! ## The reference's run, its two results named -/

/-- On every device, from any memory with zero counters: every weakly fair execution of the reference terminates with
    its first result the graph convolution of network a's parameters, its second that of network b's (both over the
    shared features and adjacency), and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v11) = Cert.Coteach.gcn (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v23) = Cert.Coteach.gcn (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run (Cert.ReferenceIdeal.defs (F := Ideal)) _ _).mono
    (fun _ h c => ⟨(h c).1.trans (v11_eq _ _ _ _ _ _), (h c).2.1.trans (v23_eq _ _ _ _ _ _), (h c).2.2⟩)
    (Cert.ReferenceIdeal.Value.run (F := Ideal) m ρ)

end Cert.ReferenceIdeal.RefValue

end
-- ==== Proof.FusedLaw.lean ====
/-
  The fused form of the two graph convolutions is the two networks side by side.

  Column `j` of the fused hidden features is network a's column `j` when `j < 128` and network b's column `j - 128`
  otherwise, because the side-by-side weights and the concatenated biases select; propagation along the graph acts on
  each column separately, so the same holds after it. The second layer sums over the 256 hidden columns; that sum is
  the sum over the first 128 plus the sum over the last 128, and in the half that meets a zero block of the
  block-diagonal weights every term is `max _ 0 * 0 = 0` (on the extended reals `x * 0 = 0` for every `x`, infinite or
  not). So the fused second-layer features are network a's in columns 0–63 and network b's in columns 64–127, and so is
  their propagation along the graph.
-/
import proofs.«148140_g63204738728390_cont_9to1c4b_181_2_alg».proof.Proof.Spec
import Mathlib.Algebra.BigOperators.Fin

noncomputable section

namespace Cert.Coteach

open Idealize.ShloMosaic Idealize.ShloMosaic.ValueIdx

/-! ## The side-by-side weights and the concatenated biases select -/

theorem w1c_lo (W1a W1b : Mat 128 128) (k : Fin 128) (j : Fin 256) (j' : Fin 128) (h : j.val = j'.val) :
    w1c W1a W1b k j = W1a (ix2 k j') := by
  have hj : j.val < 128 := by have := j'.isLt; omega
  unfold w1c
  rw [dif_pos hj]
  exact congrArg (fun t => W1a (ix2 k t)) (Fin.ext h)

theorem w1c_hi (W1a W1b : Mat 128 128) (k : Fin 128) (j : Fin 256) (j' : Fin 128) (h : j.val = j'.val + 128) :
    w1c W1a W1b k j = W1b (ix2 k j') := by
  have hj : ¬ j.val < 128 := by omega
  unfold w1c
  rw [dif_neg hj]
  exact congrArg (fun t => W1b (ix2 k t)) (Fin.ext (by show j.val - 128 = j'.val; omega))

theorem b1c_lo (b1a b1b : Vect 128) (j : Fin 256) (j' : Fin 128) (h : j.val = j'.val) :
    b1c b1a b1b j = b1a (ix1 j') := by
  have hj : j.val < 128 := by have := j'.isLt; omega
  unfold b1c
  rw [dif_pos hj]
  exact congrArg (fun t => b1a (ix1 t)) (Fin.ext h)

theorem b1c_hi (b1a b1b : Vect 128) (j : Fin 256) (j' : Fin 128) (h : j.val = j'.val + 128) :
    b1c b1a b1b j = b1b (ix1 j') := by
  have hj : ¬ j.val < 128 := by omega
  unfold b1c
  rw [dif_neg hj]
  exact congrArg (fun t => b1b (ix1 t)) (Fin.ext (by show j.val - 128 = j'.val; omega))

theorem b2c_lo (b2a b2b : Vect 64) (j : Fin 128) (j' : Fin 64) (h : j.val = j'.val) :
    b2c b2a b2b j = b2a (ix1 j') := by
  have hj : j.val < 64 := by have := j'.isLt; omega
  unfold b2c
  rw [dif_pos hj]
  exact congrArg (fun t => b2a (ix1 t)) (Fin.ext h)

theorem b2c_hi (b2a b2b : Vect 64) (j : Fin 128) (j' : Fin 64) (h : j.val = j'.val + 64) :
    b2c b2a b2b j = b2b (ix1 j') := by
  have hj : ¬ j.val < 64 := by omega
  unfold b2c
  rw [dif_neg hj]
  exact congrArg (fun t => b2b (ix1 t)) (Fin.ext (by show j.val - 64 = j'.val; omega))

/-! ## The four blocks of the block-diagonal second-layer weights -/

theorem w2c_aa (W2a W2b : Mat 128 64) (k : Fin 256) (k' : Fin 128) (hk : k.val = k'.val) (j : Fin 128) (j' : Fin 64)
    (hj : j.val = j'.val) : w2c W2a W2b k j = W2a (ix2 k' j') := by
  have hk' : k.val < 128 := by have := k'.isLt; omega
  have hj' : j.val < 64 := by have := j'.isLt; omega
  unfold w2c
  rw [dif_pos hk', dif_pos hj']
  exact congrArg₂ (fun s t => W2a (ix2 s t)) (Fin.ext hk) (Fin.ext hj)

theorem w2c_ab (W2a W2b : Mat 128 64) (k : Fin 256) (hk : k.val < 128) (j : Fin 128) (hj : ¬ j.val < 64) :
    w2c W2a W2b k j = 0 := by
  unfold w2c
  rw [dif_pos hk, dif_neg hj]

theorem w2c_ba (W2a W2b : Mat 128 64) (k : Fin 256) (hk : ¬ k.val < 128) (j : Fin 128) (hj : j.val < 64) :
    w2c W2a W2b k j = 0 := by
  unfold w2c
  rw [dif_neg hk, dif_pos hj]

theorem w2c_bb (W2a W2b : Mat 128 64) (k : Fin 256) (k' : Fin 128) (hk : k.val = k'.val + 128) (j : Fin 128) (j' : Fin 64)
    (hj : j.val = j'.val + 64) : w2c W2a W2b k j = W2b (ix2 k' j') := by
  have hk' : ¬ k.val < 128 := by omega
  have hj' : ¬ j.val < 64 := by omega
  unfold w2c
  rw [dif_neg hk', dif_neg hj']
  exact congrArg₂ (fun s t => W2b (ix2 s t)) (Fin.ext (by show k.val - 128 = k'.val; omega))
    (Fin.ext (by show j.val - 64 = j'.val; omega))

/-! ## The first layer and its propagation, column by column -/

/-- Propagation along the graph acts on each column separately. -/
theorem prop_congr {n n' : Nat} (A : Mat 10000 10000) (h : Fin 10000 → Fin n → EReal) (h' : Fin 10000 → Fin n' → EReal)
    (j : Fin n) (j' : Fin n') (e : ∀ k, h k j = h' k j') (r : Fin 10000) : prop A h r j = prop A h' r j' := by
  unfold prop
  exact Finset.sum_congr rfl fun k _ => by rw [e k]

theorem xcF_lo (x : Mat 10000 128) (W1a W1b : Mat 128 128) (b1a b1b : Vect 128) (r : Fin 10000) (j : Fin 256) (j' : Fin 128)
    (h : j.val = j'.val) : xcF x W1a W1b b1a b1b r j = lin1 x W1a b1a r j' := by
  unfold xcF lin1
  rw [b1c_lo b1a b1b j j' h]
  exact congrArg (· + b1a (ix1 j')) (Finset.sum_congr rfl fun k _ => by rw [w1c_lo W1a W1b k j j' h])

theorem xcF_hi (x : Mat 10000 128) (W1a W1b : Mat 128 128) (b1a b1b : Vect 128) (r : Fin 10000) (j : Fin 256) (j' : Fin 128)
    (h : j.val = j'.val + 128) : xcF x W1a W1b b1a b1b r j = lin1 x W1b b1b r j' := by
  unfold xcF lin1
  rw [b1c_hi b1a b1b j j' h]
  exact congrArg (· + b1b (ix1 j')) (Finset.sum_congr rfl fun k _ => by rw [w1c_hi W1a W1b k j j' h])

theorem prop_xcF_lo (x : Mat 10000 128) (A : Mat 10000 10000) (W1a W1b : Mat 128 128) (b1a b1b : Vect 128) (r : Fin 10000)
    (j : Fin 256) (j' : Fin 128) (h : j.val = j'.val) :
    prop A (xcF x W1a W1b b1a b1b) r j = prop A (lin1 x W1a b1a) r j' := by
  unfold prop
  exact Finset.sum_congr rfl fun k _ => by rw [xcF_lo x W1a W1b b1a b1b k j j' h]

theorem prop_xcF_hi (x : Mat 10000 128) (A : Mat 10000 10000) (W1a W1b : Mat 128 128) (b1a b1b : Vect 128) (r : Fin 10000)
    (j : Fin 256) (j' : Fin 128) (h : j.val = j'.val + 128) :
    prop A (xcF x W1a W1b b1a b1b) r j = prop A (lin1 x W1b b1b) r j' := by
  unfold prop
  exact Finset.sum_congr rfl fun k _ => by rw [xcF_hi x W1a W1b b1a b1b k j j' h]

/-! ## A sum over 256 columns is the sum over the first 128 plus the sum over the last 128 -/

theorem sum_fin256 (f : Fin 256 → EReal) :
    ∑ k : Fin 256, f k
      = (∑ k : Fin 128, f ⟨k.val, by have := k.isLt; omega⟩) + ∑ k : Fin 128, f ⟨k.val + 128, by have := k.isLt; omega⟩ := by
  refine (Fin.sum_univ_add (a := 128) (b := 128) f).trans ?_
  refine congrArg₂ (· + ·) (Finset.sum_congr rfl fun k _ => congrArg f (Fin.ext rfl))
    (Finset.sum_congr rfl fun k _ => congrArg f (Fin.ext ?_))
  show 128 + k.val = k.val + 128
  omega

/-! ## The second layer: the zero blocks drop out -/

theorem gF_lo (h : Fin 10000 → Fin 256 → EReal) (W2a W2b : Mat 128 64) (b2a b2b : Vect 64) (r : Fin 10000)
    (j : Fin 128) (j' : Fin 64) (hj : j.val = j'.val) :
    gF h W2a W2b b2a b2b r j
      = (∑ k : Fin 128, max (h r ⟨k.val, by have := k.isLt; omega⟩) 0 * W2a (ix2 k j')) + b2a (ix1 j') := by
  have hj' : j.val < 64 := by have := j'.isLt; omega
  unfold gF
  rw [b2c_lo b2a b2b j j' hj, sum_fin256 (fun k => max (h r k) 0 * w2c W2a W2b k j)]
  refine congrArg (· + b2a (ix1 j')) ?_
  have hz : (∑ k : Fin 128, max (h r ⟨k.val + 128, by have := k.isLt; omega⟩) 0
      * w2c W2a W2b ⟨k.val + 128, by have := k.isLt; omega⟩ j) = 0 :=
    Finset.sum_eq_zero fun k _ => by
      rw [w2c_ba W2a W2b ⟨k.val + 128, by have := k.isLt; omega⟩ (by show ¬ k.val + 128 < 128; omega) j hj', mul_zero]
  refine (congrArg (_ + ·) hz).trans ?_
  rw [add_zero]
  exact Finset.sum_congr rfl fun k _ => by
    rw [w2c_aa W2a W2b ⟨k.val, by have := k.isLt; omega⟩ k rfl j j' hj]

theorem gF_hi (h : Fin 10000 → Fin 256 → EReal) (W2a W2b : Mat 128 64) (b2a b2b : Vect 64) (r : Fin 10000)
    (j : Fin 128) (j' : Fin 64) (hj : j.val = j'.val + 64) :
    gF h W2a W2b b2a b2b r j
      = (∑ k : Fin 128, max (h r ⟨k.val + 128, by have := k.isLt; omega⟩) 0 * W2b (ix2 k j')) + b2b (ix1 j') := by
  have hj' : ¬ j.val < 64 := by omega
  unfold gF
  rw [b2c_hi b2a b2b j j' hj, sum_fin256 (fun k => max (h r k) 0 * w2c W2a W2b k j)]
  refine congrArg (· + b2b (ix1 j')) ?_
  have hz : (∑ k : Fin 128, max (h r ⟨k.val, by have := k.isLt; omega⟩) 0
      * w2c W2a W2b ⟨k.val, by have := k.isLt; omega⟩ j) = 0 :=
    Finset.sum_eq_zero fun k _ => by
      rw [w2c_ab W2a W2b ⟨k.val, by have := k.isLt; omega⟩ k.isLt j hj', mul_zero]
  refine (congrArg (· + _) hz).trans ?_
  rw [zero_add]
  exact Finset.sum_congr rfl fun k _ => by
    rw [w2c_bb W2a W2b ⟨k.val + 128, by have := k.isLt; omega⟩ k rfl j j' hj]

/-! ## The fused second-layer features and their propagation -/

theorem fusedG_lo (x : Mat 10000 128) (A : Mat 10000 10000) (W1a : Mat 128 128) (b1a : Vect 128) (W2a : Mat 128 64) (b2a : Vect 64)
    (W1b : Mat 128 128) (b1b : Vect 128) (W2b : Mat 128 64) (b2b : Vect 64) (r : Fin 10000) (j : Fin 128) (j' : Fin 64)
    (hj : j.val = j'.val) :
    fusedG x A W1a b1a W2a b2a W1b b1b W2b b2b r j = lin2 (prop A (lin1 x W1a b1a)) W2a b2a r j' := by
  unfold fusedG lin2
  rw [gF_lo _ W2a W2b b2a b2b r j j' hj]
  exact congrArg (· + b2a (ix1 j')) (Finset.sum_congr rfl fun k _ => by
    rw [prop_xcF_lo x A W1a W1b b1a b1b r ⟨k.val, by have := k.isLt; omega⟩ k rfl])

theorem fusedG_hi (x : Mat 10000 128) (A : Mat 10000 10000) (W1a : Mat 128 128) (b1a : Vect 128) (W2a : Mat 128 64) (b2a : Vect 64)
    (W1b : Mat 128 128) (b1b : Vect 128) (W2b : Mat 128 64) (b2b : Vect 64) (r : Fin 10000) (j : Fin 128) (j' : Fin 64)
    (hj : j.val = j'.val + 64) :
    fusedG x A W1a b1a W2a b2a W1b b1b W2b b2b r j = lin2 (prop A (lin1 x W1b b1b)) W2b b2b r j' := by
  unfold fusedG lin2
  rw [gF_hi _ W2a W2b b2a b2b r j j' hj]
  exact congrArg (· + b2b (ix1 j')) (Finset.sum_congr rfl fun k _ => by
    rw [prop_xcF_hi x A W1a W1b b1a b1b r ⟨k.val + 128, by have := k.isLt; omega⟩ k rfl])

theorem fusedO_lo (x : Mat 10000 128) (A : Mat 10000 10000) (W1a : Mat 128 128) (b1a : Vect 128) (W2a : Mat 128 64) (b2a : Vect 64)
    (W1b : Mat 128 128) (b1b : Vect 128) (W2b : Mat 128 64) (b2b : Vect 64) (r : Fin 10000) (j : Fin 128) (j' : Fin 64)
    (hj : j.val = j'.val) :
    fusedO x A W1a b1a W2a b2a W1b b1b W2b b2b r j = gcnAt x A W1a b1a W2a b2a r j' := by
  unfold fusedO gcnAt
  exact prop_congr A _ _ j j' (fun k => fusedG_lo x A W1a b1a W2a b2a W1b b1b W2b b2b k j j' hj) r

theorem fusedO_hi (x : Mat 10000 128) (A : Mat 10000 10000) (W1a : Mat 128 128) (b1a : Vect 128) (W2a : Mat 128 64) (b2a : Vect 64)
    (W1b : Mat 128 128) (b1b : Vect 128) (W2b : Mat 128 64) (b2b : Vect 64) (r : Fin 10000) (j : Fin 128) (j' : Fin 64)
    (hj : j.val = j'.val + 64) :
    fusedO x A W1a b1a W2a b2a W1b b1b W2b b2b r j = gcnAt x A W1b b1b W2b b2b r j' := by
  unfold fusedO gcnAt
  exact prop_congr A _ _ j j' (fun k => fusedG_hi x A W1a b1a W2a b2a W1b b1b W2b b2b k j j' hj) r

/-! ## The two halves of the fused result are the two networks -/

/-- The left 64 columns of the fused result are network a's output. -/
theorem fusedOut1_eq (x : Mat 10000 128) (A : Mat 10000 10000) (W1a : Mat 128 128) (b1a : Vect 128) (W2a : Mat 128 64) (b2a : Vect 64)
    (W1b : Mat 128 128) (b1b : Vect 128) (W2b : Mat 128 64) (b2b : Vect 64) :
    fusedOut1 x A W1a b1a W2a b2a W1b b1b W2b b2b = gcn x A W1a b1a W2a b2a := by
  funext i
  exact fusedO_lo x A W1a b1a W2a b2a W1b b1b W2b b2b (i 0) _ (i 1) rfl

/-- The right 64 columns of the fused result are network b's output. -/
theorem fusedOut2_eq (x : Mat 10000 128) (A : Mat 10000 10000) (W1a : Mat 128 128) (b1a : Vect 128) (W2a : Mat 128 64) (b2a : Vect 64)
    (W1b : Mat 128 128) (b1b : Vect 128) (W2b : Mat 128 64) (b2b : Vect 64) :
    fusedOut2 x A W1a b1a W2a b2a W1b b1b W2b b2b = gcn x A W1b b1b W2b b2b := by
  funext i
  exact fusedO_hi x A W1a b1a W2a b2a W1b b1b W2b b2b (i 0) _ (i 1) rfl

end Cert.Coteach

end
-- ==== Proof.HostVals.lean ====
/-
  What the host operations before the first kernel leave in the six buffers it reads, at the ideal instance.

  The node features are converted to a narrower format (the identity on the extended reals); the two networks' first-layer
  weights are joined side by side and their biases end to end; the second-layer weights are written into the two diagonal
  blocks of a zero matrix, and their biases joined end to end. Each result is read index by index.
-/
import proofs.«148140_g63204738728390_cont_9to1c4b_181_2_alg».proof.Proof.Gen.KernelIdeal.Regions
import proofs.«148140_g63204738728390_cont_9to1c4b_181_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostVals

open Idealize.ShloMosaic Idealize.ShloMosaic.ValueIdx Idealize.ShloMosaic.StableHlo Idealize.ShloMosaic.TcCoe Idealize.SL.Sem Cert.KernelIdeal Cert.KernelIdeal.Gen

/-! ## Two pieces joined along an axis, read at an index -/

/-- Two `128 × 128` matrices joined side by side: column `j < 128` is the first's column `j`, column `j ≥ 128` the
    second's column `j - 128`. -/
theorem concat_w1 (x₁ x₂ : S128x128.Idx → EReal) (h : Shape.Concatenates [S128x128, S128x128] S128x256 1) (i : S128x256.Idx) :
    concatenate S128x256 1 [⟨S128x128, x₁⟩, ⟨S128x128, x₂⟩] h i = Cert.Coteach.w1c x₁ x₂ (i 0) (i 1) := by
  unfold Cert.Coteach.w1c
  have hi1 : (i 1).val < 256 := (i 1).isLt
  by_cases hlt : (i 1).val < 128
  · rw [dif_pos hlt]
    exact concatenate_pair_apply_left 1 x₁ x₂ h i rfl (ix2 (i 0) ⟨(i 1).val, hlt⟩) (fun b => by
      match b with
      | ⟨0, _⟩ => rfl
      | ⟨1, _⟩ => rfl)
  · rw [dif_neg hlt]
    exact concatenate_pair_apply_right 1 x₁ x₂ h i rfl rfl (ix2 (i 0) ⟨(i 1).val - 128, by omega⟩) (fun b hb => by
      match b, hb with
      | ⟨0, _⟩, _ => rfl
      | ⟨1, _⟩, hb => exact absurd rfl hb) (by show (i 1).val - 128 + 128 = (i 1).val; omega)

/-- Two vectors of length 128 joined end to end. -/
theorem concat_b1 (x₁ x₂ : S128.Idx → EReal) (h : Shape.Concatenates [S128, S128] S256 0) (i : S256.Idx) :
    concatenate S256 0 [⟨S128, x₁⟩, ⟨S128, x₂⟩] h i = Cert.Coteach.b1c x₁ x₂ (i 0) := by
  unfold Cert.Coteach.b1c
  have hi0 : (i 0).val < 256 := (i 0).isLt
  by_cases hlt : (i 0).val < 128
  · rw [dif_pos hlt]
    exact concatenate_pair_apply_left 0 x₁ x₂ h i rfl (ix1 ⟨(i 0).val, hlt⟩) (fun b => by
      match b with
      | ⟨0, _⟩ => rfl)
  · rw [dif_neg hlt]
    exact concatenate_pair_apply_right 0 x₁ x₂ h i rfl rfl (ix1 ⟨(i 0).val - 128, by omega⟩) (fun b hb => by
      match b, hb with
      | ⟨0, _⟩, hb => exact absurd rfl hb) (by show (i 0).val - 128 + 128 = (i 0).val; omega)

/-- Two vectors of length 64 joined end to end. -/
theorem concat_b2 (x₁ x₂ : S64.Idx → EReal) (h : Shape.Concatenates [S64, S64] S128 0) (i : S128.Idx) :
    concatenate S128 0 [⟨S64, x₁⟩, ⟨S64, x₂⟩] h i = Cert.Coteach.b2c x₁ x₂ (i 0) := by
  unfold Cert.Coteach.b2c
  have hi0 : (i 0).val < 128 := (i 0).isLt
  by_cases hlt : (i 0).val < 64
  · rw [dif_pos hlt]
    exact concatenate_pair_apply_left 0 x₁ x₂ h i rfl (ix1 ⟨(i 0).val, hlt⟩) (fun b => by
      match b with
      | ⟨0, _⟩ => rfl)
  · rw [dif_neg hlt]
    exact concatenate_pair_apply_right 0 x₁ x₂ h i rfl rfl (ix1 ⟨(i 0).val - 64, by omega⟩) (fun b hb => by
      match b, hb with
      | ⟨0, _⟩, hb => exact absurd rfl hb) (by show (i 0).val - 64 + 64 = (i 0).val; omega)

/-- A vector cast to a one-row matrix reads, at `(u, j)`, the vector at `j`. -/
theorem shapeCast_row_apply {a : ℕ} (x : (⟨1, ![a]⟩ : Shape).Idx → EReal) (h : (⟨1, ![a]⟩ : Shape).ShapeCasts ⟨2, ![1, a]⟩)
    (i : (⟨2, ![1, a]⟩ : Shape).Idx) : shapeCast ⟨2, ![1, a]⟩ x h i = x (ix1 (i 1)) :=
  (congrArg (shapeCast ⟨2, ![1, a]⟩ x h) (eq_ix2 (n0 := 1) (n1 := a) i)).trans (shapeCast_a_1a_apply x h (i 0) (i 1))

/-! ## A block written into a matrix, read at an index

Writing updates one after another, each at its own place: an index no update lands on keeps its old value, and an index
exactly one update lands on holds that update. -/

section Fold
variable {ι β N : Type} [DecidableEq ι]

theorem foldl_set_miss (p : N → ι) (v : N → β) (i' : ι) :
    ∀ (l : List N) (x : ι → β), (∀ n ∈ l, p n ≠ i') →
      l.foldl (fun r n i'' => if i'' = p n then v n else r i'') x i' = x i'
  | [], x, _ => rfl
  | a :: t, x, h => by
    rw [List.foldl_cons, foldl_set_miss p v i' t _ (fun n hn => h n (List.mem_cons_of_mem _ hn))]
    exact if_neg (fun e => h a (by simp) e.symm)

theorem foldl_set_hit (p : N → ι) (v : N → β) (n0 : N) (i' : ι) (hp : p n0 = i') :
    ∀ (l : List N) (x : ι → β), l.Nodup → n0 ∈ l → (∀ n ∈ l, p n = i' → n = n0) →
      l.foldl (fun r n i'' => if i'' = p n then v n else r i'') x i' = v n0
  | [], x, _, hm, _ => by simp at hm
  | a :: t, x, hnd, hm, huniq => by
    rw [List.foldl_cons]
    by_cases ha : a = n0
    · subst ha
      have hnot : ∀ n ∈ t, p n ≠ i' := fun n hn hh => by
        have := huniq n (List.mem_cons_of_mem _ hn) hh
        subst this
        exact (List.nodup_cons.1 hnd).1 hn
      rw [foldl_set_miss p v i' t _ hnot]
      exact if_pos hp.symm
    · have hm' : n0 ∈ t := by
        rcases List.mem_cons.1 hm with h | h
        · exact absurd h.symm ha
        · exact h
      exact foldl_set_hit p v n0 i' hp t _ (List.nodup_cons.1 hnd).2 hm' (fun n hn => huniq n (List.mem_cons_of_mem _ hn))

end Fold

/-- An `h × w` block written into an `R × C` matrix with its corner at `(r0, c0)`: inside the block the result is the
    block's entry, outside it the matrix's own. -/
theorem scatter_block {β : Type} {R C h w : ℕ} {si : Shape} {wd : ℕ} (D : ScatterDims ⟨2, ![R, C]⟩ si ⟨2, ![h, w]⟩) (idx : IVec si wd)
    (r0 c0 : ℕ) (hR : r0 + h ≤ R) (hC : c0 + w ≤ C)
    (hres : ∀ j : (⟨2, ![h, w]⟩ : Shape).Idx, D.resultIdx? j idx
      = some (ix2 (⟨r0 + (j 0).val, by have := idx2_lt0 j; omega⟩ : Fin R) (⟨c0 + (j 1).val, by have := idx2_lt1 j; omega⟩ : Fin C)))
    (x : (⟨2, ![R, C]⟩ : Shape).Idx → β) (upd : (⟨2, ![h, w]⟩ : Shape).Idx → β) (k : Fin R) (l : Fin C) :
    Host.scatter D (fun _ b => b) x idx upd (ix2 k l)
      = if hin : r0 ≤ k.val ∧ k.val < r0 + h ∧ c0 ≤ l.val ∧ l.val < c0 + w then
          upd (ix2 (⟨k.val - r0, by omega⟩ : Fin h) (⟨l.val - c0, by omega⟩ : Fin w))
        else x (ix2 k l) := by
  have hfold : Host.scatter D (fun _ b => b) x idx upd
      = (List.finRange (⟨2, ![h, w]⟩ : Shape).numel).foldl (fun r n i'' =>
          if i'' = ix2 (⟨r0 + (((⟨2, ![h, w]⟩ : Shape).rowMajor.symm n) 0).val, by have := idx2_lt0 ((⟨2, ![h, w]⟩ : Shape).rowMajor.symm n); omega⟩ : Fin R)
                (⟨c0 + (((⟨2, ![h, w]⟩ : Shape).rowMajor.symm n) 1).val, by have := idx2_lt1 ((⟨2, ![h, w]⟩ : Shape).rowMajor.symm n); omega⟩ : Fin C)
          then upd ((⟨2, ![h, w]⟩ : Shape).rowMajor.symm n) else r i'') x := by
    unfold Host.scatter
    simp only [hres]
  rw [hfold]
  by_cases hin : r0 ≤ k.val ∧ k.val < r0 + h ∧ c0 ≤ l.val ∧ l.val < c0 + w
  · rw [dif_pos hin]
    refine (foldl_set_hit _ (fun n => upd ((⟨2, ![h, w]⟩ : Shape).rowMajor.symm n))
      ((⟨2, ![h, w]⟩ : Shape).rowMajor (ix2 (⟨k.val - r0, by omega⟩ : Fin h) (⟨l.val - c0, by omega⟩ : Fin w))) (ix2 k l) ?_ _ x
      (List.nodup_finRange _) (List.mem_finRange _) ?_).trans ?_
    · have e := Equiv.symm_apply_apply (⟨2, ![h, w]⟩ : Shape).rowMajor (ix2 (⟨k.val - r0, by omega⟩ : Fin h) (⟨l.val - c0, by omega⟩ : Fin w))
      funext a
      match a with
      | ⟨0, _⟩ => exact Fin.ext ((congrArg (fun q => r0 + (q 0).val) e).trans (by show r0 + (k.val - r0) = k.val; omega))
      | ⟨1, _⟩ => exact Fin.ext ((congrArg (fun q => c0 + (q 1).val) e).trans (by show c0 + (l.val - c0) = l.val; omega))
    · intro n _ hn
      have h0 : r0 + (((⟨2, ![h, w]⟩ : Shape).rowMajor.symm n) 0).val = k.val := congrArg Fin.val (congrFun hn 0)
      have h1 : c0 + (((⟨2, ![h, w]⟩ : Shape).rowMajor.symm n) 1).val = l.val := congrArg Fin.val (congrFun hn 1)
      refine ((Equiv.apply_symm_apply _ n).symm.trans (congrArg _ (funext fun a => ?_)))
      match a with
      | ⟨0, _⟩ => exact Fin.ext (by show (((⟨2, ![h, w]⟩ : Shape).rowMajor.symm n) 0).val = k.val - r0; omega)
      | ⟨1, _⟩ => exact Fin.ext (by show (((⟨2, ![h, w]⟩ : Shape).rowMajor.symm n) 1).val = l.val - c0; omega)
    · exact congrArg upd (Equiv.symm_apply_apply _ _)
  · rw [dif_neg hin]
    refine foldl_set_miss _ _ (ix2 k l) _ x (fun n _ hn => hin ?_)
    have h0 : r0 + (((⟨2, ![h, w]⟩ : Shape).rowMajor.symm n) 0).val = k.val := congrArg Fin.val (congrFun hn 0)
    have h1 : c0 + (((⟨2, ![h, w]⟩ : Shape).rowMajor.symm n) 1).val = l.val := congrArg Fin.val (congrFun hn 1)
    have := idx2_lt0 ((⟨2, ![h, w]⟩ : Shape).rowMajor.symm n)
    have := idx2_lt1 ((⟨2, ![h, w]⟩ : Shape).rowMajor.symm n)
    omega

/-! ## The second-layer weights: two blocks written into a zero matrix -/

/-- The row at which an update lands starts at the first component of the start index. -/
theorem start_row (j : S128x64.Idx) (idx : IVec S2 32) :
    scatter_S256x128_S2_S128x64_01_n_01_0.start j idx (0 : Fin 2) = (idx (ix1 (0 : Fin 2))).toInt := by
  unfold ScatterDims.start
  rw [dif_pos (show (0 : Fin S256x128.rank) ∈ scatter_S256x128_S2_S128x64_01_n_01_0.scatterDimsToOperandDims by decide)]
  refine congrArg (fun q => (idx q).toInt) (funext fun b => ?_)
  match b with
  | ⟨0, hb⟩ =>
    unfold ScatterDims.siIdx
    rw [dif_pos (show ((⟨0, hb⟩ : Fin S2.rank) : ℕ) = scatter_S256x128_S2_S128x64_01_n_01_0.indexVectorDim from rfl)]
    exact Fin.ext rfl

/-- The column at which an update lands starts at the second component of the start index. -/
theorem start_col (j : S128x64.Idx) (idx : IVec S2 32) :
    scatter_S256x128_S2_S128x64_01_n_01_0.start j idx (1 : Fin 2) = (idx (ix1 (1 : Fin 2))).toInt := by
  unfold ScatterDims.start
  rw [dif_pos (show (1 : Fin S256x128.rank) ∈ scatter_S256x128_S2_S128x64_01_n_01_0.scatterDimsToOperandDims by decide)]
  refine congrArg (fun q => (idx q).toInt) (funext fun b => ?_)
  match b with
  | ⟨0, hb⟩ =>
    unfold ScatterDims.siIdx
    rw [dif_pos (show ((⟨0, hb⟩ : Fin S2.rank) : ℕ) = scatter_S256x128_S2_S128x64_01_n_01_0.indexVectorDim from rfl)]
    exact Fin.ext rfl

theorem window_row (j : S128x64.Idx) : scatter_S256x128_S2_S128x64_01_n_01_0.window j (0 : Fin 2) = (j 0).val := by
  unfold ScatterDims.window
  rw [dif_pos (show (0 : Fin S256x128.rank) ∈ scatter_S256x128_S2_S128x64_01_n_01_0.sKept by decide)]
  rfl

theorem window_col (j : S128x64.Idx) : scatter_S256x128_S2_S128x64_01_n_01_0.window j (1 : Fin 2) = (j 1).val := by
  unfold ScatterDims.window
  rw [dif_pos (show (1 : Fin S256x128.rank) ∈ scatter_S256x128_S2_S128x64_01_n_01_0.sKept by decide)]
  rfl

/-- With start index `(r0, c0)` and the block inside the matrix, update `(p, q)` lands at `(r0 + p, c0 + q)`. -/
theorem resultIdx_block (idx : IVec S2 32) (r0 c0 : ℕ) (h0 : (idx (ix1 (0 : Fin 2))).toInt = (r0 : ℤ))
    (h1 : (idx (ix1 (1 : Fin 2))).toInt = (c0 : ℤ)) (hR : r0 + 128 ≤ 256) (hC : c0 + 64 ≤ 128) (j : S128x64.Idx) :
    scatter_S256x128_S2_S128x64_01_n_01_0.resultIdx? j idx
      = some (ix2 (⟨r0 + (j 0).val, by have := idx2_lt0 j; omega⟩ : Fin 256) (⟨c0 + (j 1).val, by have := idx2_lt1 j; omega⟩ : Fin 128)) := by
  have hj0 := idx2_lt0 j
  have hj1 := idx2_lt1 j
  have hb : ∀ a, 0 ≤ scatter_S256x128_S2_S128x64_01_n_01_0.start j idx a + scatter_S256x128_S2_S128x64_01_n_01_0.window j a
      ∧ scatter_S256x128_S2_S128x64_01_n_01_0.start j idx a + scatter_S256x128_S2_S128x64_01_n_01_0.window j a < S256x128.size a :=
    Fin.forall_fin_two.2 ⟨by
      rw [start_row, window_row, h0]
      show (0 : ℤ) ≤ (r0 : ℤ) + ((j 0).val : ℤ) ∧ (r0 : ℤ) + ((j 0).val : ℤ) < ((256 : ℕ) : ℤ)
      omega, by
      rw [start_col, window_col, h1]
      show (0 : ℤ) ≤ (c0 : ℤ) + ((j 1).val : ℤ) ∧ (c0 : ℤ) + ((j 1).val : ℤ) < ((128 : ℕ) : ℤ)
      omega⟩
  unfold ScatterDims.resultIdx?
  rw [dif_pos hb]
  refine congrArg some (funext fun a => Fin.ext ?_)
  revert a
  refine Fin.forall_fin_two.2 ⟨?_, ?_⟩
  · show (scatter_S256x128_S2_S128x64_01_n_01_0.start j idx (0 : Fin 2) + scatter_S256x128_S2_S128x64_01_n_01_0.window j (0 : Fin 2)).toNat = r0 + (j 0).val
    rw [start_row, window_row, h0]; omega
  · show (scatter_S256x128_S2_S128x64_01_n_01_0.start j idx (1 : Fin 2) + scatter_S256x128_S2_S128x64_01_n_01_0.window j (1 : Fin 2)).toNat = c0 + (j 1).val
    rw [start_col, window_col, h1]; omega

/-- A start index built from two constants reads those constants. -/
theorem pair_apply0 (a b : BitVec 32) (h : Shape.Concatenates [S1, S1] S2 0) (hb : S_.BroadcastsInDim S1 (![] : Fin 0 → Fin S1.rank)) :
    concatenate S2 0 [⟨S1, broadcastInDim S1 ![] hb (constantI S_ 32 a)⟩, ⟨S1, broadcastInDim S1 ![] hb (constantI S_ 32 b)⟩] h (ix1 (0 : Fin 2)) = a := by
  refine (concatenate_pair_apply_left 0 _ _ h (ix1 (0 : Fin 2)) rfl (ix1 (0 : Fin 1)) (fun q => by
    match q with
    | ⟨0, _⟩ => rfl)).trans ?_
  exact broadcastInDim_apply _ hb _ _ ix0 (fun q => q.elim0)

theorem pair_apply1 (a b : BitVec 32) (h : Shape.Concatenates [S1, S1] S2 0) (hb : S_.BroadcastsInDim S1 (![] : Fin 0 → Fin S1.rank)) :
    concatenate S2 0 [⟨S1, broadcastInDim S1 ![] hb (constantI S_ 32 a)⟩, ⟨S1, broadcastInDim S1 ![] hb (constantI S_ 32 b)⟩] h (ix1 (1 : Fin 2)) = b := by
  refine (concatenate_pair_apply_right 0 _ _ h (ix1 (1 : Fin 2)) rfl rfl (ix1 (0 : Fin 1)) (fun q hq => by
    match q, hq with
    | ⟨0, _⟩, hq => exact absurd rfl hq) rfl).trans ?_
  exact broadcastInDim_apply _ hb _ _ ix0 (fun q => q.elim0)

/-- The two blocks written into a zero matrix, the first at `(0, 0)`, the second at `(128, 64)`, are the block-diagonal
    second-layer weights. -/
theorem w2_read (W2a W2b : S128x64.Idx → EReal) (idxA idxB : IVec S2 32)
    (hA0 : (idxA (ix1 (0 : Fin 2))).toInt = ((0 : ℕ) : ℤ)) (hA1 : (idxA (ix1 (1 : Fin 2))).toInt = ((0 : ℕ) : ℤ))
    (hB0 : (idxB (ix1 (0 : Fin 2))).toInt = ((128 : ℕ) : ℤ)) (hB1 : (idxB (ix1 (1 : Fin 2))).toInt = ((64 : ℕ) : ℤ))
    (z : S256x128.Idx → EReal) (hz : ∀ i, z i = 0) (k : Fin 256) (l : Fin 128) :
    Host.scatter scatter_S256x128_S2_S128x64_01_n_01_0 (fun _ b => b) (Host.scatter scatter_S256x128_S2_S128x64_01_n_01_0 (fun _ b => b) z idxA W2a) idxB W2b (ix2 k l)
      = Cert.Coteach.w2c W2a W2b k l := by
  rw [scatter_block scatter_S256x128_S2_S128x64_01_n_01_0 idxB 128 64 (by decide) (by decide) (resultIdx_block idxB 128 64 hB0 hB1 (by decide) (by decide))]
  rw [scatter_block scatter_S256x128_S2_S128x64_01_n_01_0 idxA 0 0 (by decide) (by decide) (resultIdx_block idxA 0 0 hA0 hA1 (by decide) (by decide))]
  unfold Cert.Coteach.w2c
  have hk2 := k.isLt
  have hl2 := l.isLt
  by_cases hk : k.val < 128 <;> by_cases hl : l.val < 64
  · rw [dif_neg (by omega), dif_pos (by omega), dif_pos hk, dif_pos hl]; rfl
  · rw [dif_neg (by omega), dif_neg (by omega), dif_pos hk, dif_neg hl]; exact hz _
  · rw [dif_neg (by omega), dif_neg (by omega), dif_neg hk, dif_pos hl]; exact hz _
  · rw [dif_pos (by omega), dif_neg hk, dif_neg hl]

/-! ## The buffers the first kernel reads -/

section Buffers

variable (m : (ℓ : Loc nD τ sig) → Buf (Elt Ideal) ℓ) (c : Dev nD)

/-- No host operation writes an argument. -/
theorem V1_arg1 : Gen.V1 m c main_arg1 = m ((c : Thread nD τ).loc main_arg1) :=
  (Gen.V1_of m c main_arg1 (by decide)).trans rfl

/-- The node features, converted: the identity. -/
theorem V1_v16 : (Gen.V1 m c main_v16 : S10000x128.Idx → EReal) = m ((c : Thread nD τ).loc main_arg0) := by
  have e : (Gen.V1 m c main_v16 : S10000x128.Idx → EReal)
      = (truncf (F := Ideal) (s := S10000x128) .bf16 (m ((c : Thread nD τ).loc main_arg0) : FVec Ideal S10000x128 .f32) bitsLt_bf16_f32 : S10000x128.Idx → EReal) := by
    dsimp only [Gen.V1, Gen.hostOps0]; after_results; try rfl
  exact e.trans rfl

/-- The first-layer weights side by side. -/
theorem V1_v1 : (Gen.V1 m c main_v1 : S128x256.Idx → EReal)
    = fun i => Cert.Coteach.w1c (m ((c : Thread nD τ).loc main_arg2)) (m ((c : Thread nD τ).loc main_arg6)) (i 0) (i 1) := by
  have e : (Gen.V1 m c main_v1 : S128x256.Idx → EReal)
      = (truncf (F := Ideal) (s := S128x256) .bf16 (concatenate S128x256 1 [⟨S128x128, (m ((c : Thread nD τ).loc main_arg2) : FVec Ideal S128x128 .f32)⟩, ⟨S128x128, (m ((c : Thread nD τ).loc main_arg6) : FVec Ideal S128x128 .f32)⟩] concatenates_S128x128_S128x128_S128x256_d1 : FVec Ideal S128x256 .f32) bitsLt_bf16_f32 : S128x256.Idx → EReal) := by
    dsimp only [Gen.V1, Gen.hostOps0]; after_results; try rfl
  refine e.trans (funext fun i => ?_)
  refine (truncf_apply (φ := .f32) (ψ := .bf16) _ bitsLt_bf16_f32 i).trans ?_
  exact concat_w1 _ _ concatenates_S128x128_S128x128_S128x256_d1 i

/-- The first-layer biases end to end, as one row. -/
theorem V1_v3 : (Gen.V1 m c main_v3 : S1x256.Idx → EReal)
    = fun i => Cert.Coteach.b1c (m ((c : Thread nD τ).loc main_arg3)) (m ((c : Thread nD τ).loc main_arg7)) (i 1) := by
  have e : (Gen.V1 m c main_v3 : S1x256.Idx → EReal)
      = (shapeCast S1x256 (concatenate S256 0 [⟨S128, (m ((c : Thread nD τ).loc main_arg3) : FVec Ideal S128 .f32)⟩, ⟨S128, (m ((c : Thread nD τ).loc main_arg7) : FVec Ideal S128 .f32)⟩] concatenates_S128_S128_S256_d0 : FVec Ideal S256 .f32) shapeCasts_S256_S1x256 : S1x256.Idx → EReal) := by
    dsimp only [Gen.V1, Gen.hostOps0]; after_results; try rfl
  refine e.trans (funext fun i => ?_)
  refine (shapeCast_row_apply _ shapeCasts_S256_S1x256 i).trans ?_
  exact concat_b1 _ _ concatenates_S128_S128_S256_d0 (ix1 (i 1))

/-- The second-layer biases end to end, as one row. -/
theorem V1_v15 : (Gen.V1 m c main_v15 : S1x128.Idx → EReal)
    = fun i => Cert.Coteach.b2c (m ((c : Thread nD τ).loc main_arg5)) (m ((c : Thread nD τ).loc main_arg9)) (i 1) := by
  have e : (Gen.V1 m c main_v15 : S1x128.Idx → EReal)
      = (shapeCast S1x128 (concatenate S128 0 [⟨S64, (m ((c : Thread nD τ).loc main_arg5) : FVec Ideal S64 .f32)⟩, ⟨S64, (m ((c : Thread nD τ).loc main_arg9) : FVec Ideal S64 .f32)⟩] concatenates_S64_S64_S128_d0 : FVec Ideal S128 .f32) shapeCasts_S128_S1x128 : S1x128.Idx → EReal) := by
    dsimp only [Gen.V1, Gen.hostOps0]; after_results; try rfl
  refine e.trans (funext fun i => ?_)
  refine (shapeCast_row_apply _ shapeCasts_S128_S1x128 i).trans ?_
  exact concat_b2 _ _ concatenates_S64_S64_S128_d0 (ix1 (i 1))

/-- The second-layer weights, block-diagonal. -/
theorem V1_v13 : (Gen.V1 m c main_v13 : S256x128.Idx → EReal)
    = fun i => Cert.Coteach.w2c (m ((c : Thread nD τ).loc main_arg4)) (m ((c : Thread nD τ).loc main_arg8)) (i 0) (i 1) := by
  have e : (Gen.V1 m c main_v13 : S256x128.Idx → EReal)
      = (truncf (F := Ideal) (s := S256x128) .bf16
          (Host.scatter scatter_S256x128_S2_S128x64_01_n_01_0 (fun _ b => b)
            (Host.scatter scatter_S256x128_S2_S128x64_01_n_01_0 (fun _ b => b)
              (broadcastInDim S256x128 ![] bcast_S_S256x128 (constant (F := Ideal) S_ .f32 0x00000000#32) : FVec Ideal S256x128 .f32)
              (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32)
              (m ((c : Thread nD τ).loc main_arg4) : FVec Ideal S128x64 .f32))
            (concatenate S2 0 [⟨S1, broadcastInDim S1 ![] bcast_S_S1 (constantI S_ 32 128#32)⟩, ⟨S1, broadcastInDim S1 ![] bcast_S_S1 (constantI S_ 32 64#32)⟩] concatenates_S1_S1_S2_d0 : IVec S2 32)
            (m ((c : Thread nD τ).loc main_arg8) : FVec Ideal S128x64 .f32) : FVec Ideal S256x128 .f32)
          bitsLt_bf16_f32 : S256x128.Idx → EReal) := by
    dsimp only [Gen.V1, Gen.hostOps0]; after_results; try rfl
  refine e.trans (funext fun i => ?_)
  refine (truncf_apply (φ := .f32) (ψ := .bf16) _ bitsLt_bf16_f32 i).trans ?_
  refine (congrArg _ (eq_ix2 (n0 := 256) (n1 := 128) i)).trans ?_
  refine w2_read _ _ _ _ ?_ ?_ ?_ ?_ _ (fun i' => ?_) (i 0) (i 1)
  · rw [pair_apply0]; rfl
  · rw [pair_apply1]; rfl
  · rw [pair_apply0]; rfl
  · rw [pair_apply1]; rfl
  · refine (broadcastInDim_apply _ bcast_S_S256x128 _ i' ix0 (fun q => q.elim0)).trans ?_
    exact Ideal.ofBits_zero_f32

end Buffers

end Cert.KernelIdeal.HostVals

end
-- ==== Proof.Payloads.lean ====
/-
  The kernel's arithmetic read at an index, at the ideal instance (floats are extended reals, every operation exact,
  every change of format the identity).

  Each of the three payloads is a chain of matrix products into a zero accumulator, a row bias broadcast over the rows,
  a rectifier, and format changes. Read at row `r`, column `j`:
    * the first payload is  (∑ k, x r k * W k j) + b j ;
    * the second is         (∑ k, max (∑ k', A r k' * X k' k) 0 * W k j) + b j ;
    * the third is          ∑ k, A r k * G k j .
-/
import proofs.«148140_g63204738728390_cont_9to1c4b_181_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

/-- A matrix product `[a,n] × [n,b]` into the zero accumulator, read at row `r`, column `j`, is the sum over the one
    contracted coordinate `k : Fin n` of the left operand at `(r,k)` times the right operand at `(k,j)`: the sum over the
    dot record's contraction index, carried to `Fin n` along the bijection between the two. -/
theorem matmul_zero_ix2 {a n b : Nat} {φ₁ φ₂ : FTy} (d : DotDims ⟨2, ![a, n]⟩ ⟨2, ![n, b]⟩ ⟨2, ![a, b]⟩)
    (hr : d.contr.rank = 1) (hs : d.contr.size ⟨0, by omega⟩ = n)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, n]⟩ φ₁) (rhs : FVec Ideal ⟨2, ![n, b]⟩ φ₂) (r : Fin a) (j : Fin b) :
    FloatOps.matmul d none lhs rhs (constant ⟨2, ![a, b]⟩ .f32 0x00000000#32) (ix2 r j)
      = ∑ k : Fin n, lhs (ix2 r k) * rhs (ix2 k j) := by
  rw [Ideal.matmul_constant_zero_apply, ← Equiv.sum_comp (contrEquiv1 d n hr hs).symm]
  refine Finset.sum_congr rfl fun k _ => ?_
  have hk := contrEquiv1_symm_val d n hr hs k
  have el : d.lhsIdx (ix2 r j) ((contrEquiv1 d n hr hs).symm k) = ix2 r k := funext fun x => Fin.ext (by
    match x with
    | ⟨0, _⟩ => exact hl0 _ _
    | ⟨1, _⟩ => exact (hl1 _ _).trans hk)
  have er : d.rhsIdx (ix2 r j) ((contrEquiv1 d n hr hs).symm k) = ix2 k j := funext fun x => Fin.ext (by
    match x with
    | ⟨0, _⟩ => exact (hr0 _ _).trans hk
    | ⟨1, _⟩ => exact hr1 _ _)
  rw [el, er]

/-! ## The operand indices of the four dot records -/

theorem dA_l0 (i : S10000x256.Idx) (q : dot_S10000x128_S128x256_S10000x256_1_0_0_1_n_n.contr.Idx) : (dot_S10000x128_S128x256_S10000x256_1_0_0_1_n_n.lhsIdx i q 0).val = (i 0).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
theorem dA_l1 (i : S10000x256.Idx) (q : dot_S10000x128_S128x256_S10000x256_1_0_0_1_n_n.contr.Idx) : (dot_S10000x128_S128x256_S10000x256_1_0_0_1_n_n.lhsIdx i q 1).val = (q ⟨0, by decide⟩).val :=
  dot_S10000x128_S128x256_S10000x256_1_0_0_1_n_n.lhsIdx_val_of_single rfl i q
theorem dA_r0 (i : S10000x256.Idx) (q : dot_S10000x128_S128x256_S10000x256_1_0_0_1_n_n.contr.Idx) : (dot_S10000x128_S128x256_S10000x256_1_0_0_1_n_n.rhsIdx i q 0).val = (q ⟨0, by decide⟩).val :=
  dot_S10000x128_S128x256_S10000x256_1_0_0_1_n_n.rhsIdx_val_of_single rfl i q
theorem dA_r1 (i : S10000x256.Idx) (q : dot_S10000x128_S128x256_S10000x256_1_0_0_1_n_n.contr.Idx) : (dot_S10000x128_S128x256_S10000x256_1_0_0_1_n_n.rhsIdx i q 1).val = (i 1).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

theorem dB_l0 (i : S400x256.Idx) (q : dot_S400x10000_S10000x256_S400x256_1_0_0_1_n_n.contr.Idx) : (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem dB_l1 (i : S400x256.Idx) (q : dot_S400x10000_S10000x256_S400x256_1_0_0_1_n_n.contr.Idx) : (dot_S400x10000_S10000x256_S400x256_1_0_0_1_n_n.lhsIdx i q 1).val = (q ⟨0, by decide⟩).val :=
  dot_S400x10000_S10000x256_S400x256_1_0_0_1_n_n.lhsIdx_val_of_single rfl i q
theorem dB_r0 (i : S400x256.Idx) (q : dot_S400x10000_S10000x256_S400x256_1_0_0_1_n_n.contr.Idx) : (dot_S400x10000_S10000x256_S400x256_1_0_0_1_n_n.rhsIdx i q 0).val = (q ⟨0, by decide⟩).val :=
  dot_S400x10000_S10000x256_S400x256_1_0_0_1_n_n.rhsIdx_val_of_single rfl i q
theorem dB_r1 (i : S400x256.Idx) (q : dot_S400x10000_S10000x256_S400x256_1_0_0_1_n_n.contr.Idx) : (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

theorem dC_l0 (i : S400x128.Idx) (q : dot_S400x256_S256x128_S400x128_1_0_0_1_n_n.contr.Idx) : (dot_S400x256_S256x128_S400x128_1_0_0_1_n_n.lhsIdx i q 0).val = (i 0).val := by
  unfold DotDims.lhsIdx
  rw [dif_neg (show ¬(0 : Fin S400x256.rank) ∈ dot_S400x256_S256x128_S400x128_1_0_0_1_n_n.lhsBatch by decide), dif_pos (show (0 : Fin S400x256.rank) ∈ dot_S400x256_S256x128_S400x128_1_0_0_1_n_n.lhsNonContracting by decide)]
  rfl
theorem dC_l1 (i : S400x128.Idx) (q : dot_S400x256_S256x128_S400x128_1_0_0_1_n_n.contr.Idx) : (dot_S400x256_S256x128_S400x128_1_0_0_1_n_n.lhsIdx i q 1).val = (q ⟨0, by decide⟩).val :=
  dot_S400x256_S256x128_S400x128_1_0_0_1_n_n.lhsIdx_val_of_single rfl i q
theorem dC_r0 (i : S400x128.Idx) (q : dot_S400x256_S256x128_S400x128_1_0_0_1_n_n.contr.Idx) : (dot_S400x256_S256x128_S400x128_1_0_0_1_n_n.rhsIdx i q 0).val = (q ⟨0, by decide⟩).val :=
  dot_S400x256_S256x128_S400x128_1_0_0_1_n_n.rhsIdx_val_of_single rfl i q
theorem dC_r1 (i : S400x128.Idx) (q : dot_S400x256_S256x128_S400x128_1_0_0_1_n_n.contr.Idx) : (dot_S400x256_S256x128_S400x128_1_0_0_1_n_n.rhsIdx i q 1).val = (i 1).val := by
  unfold DotDims.rhsIdx
  rw [dif_neg (show ¬(1 : Fin S256x128.rank) ∈ dot_S400x256_S256x128_S400x128_1_0_0_1_n_n.rhsBatch by decide), dif_pos (show (1 : Fin S256x128.rank) ∈ dot_S400x256_S256x128_S400x128_1_0_0_1_n_n.rhsNonContracting by decide)]
  rfl

theorem dD_l0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem dD_l1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem dD_r0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem dD_r1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-! ## The three payloads -/

/-- The third payload: `A · G` at `(r, j)`. -/
theorem pay3_apply (v0 : Vec Ideal S400x10000 .f32) (v2 : Vec Ideal S10000x128 .bf16) (r : Fin 400) (j : Fin 128) :
    k1_pay1 (F := Ideal) v0 v2 (ix2 r j) = ∑ k : Fin 10000, v0 (ix2 r k) * v2 (ix2 k j) := by
  unfold k1_pay1
  simp only [shapeCast_self, matmul]
  exact matmul_zero_ix2 dot_S400x10000_S10000x128_S400x128_1_0_0_1_n_n rfl rfl dD_l0 dD_l1 dD_r0 dD_r1 _ _ r j

/-- The first payload: `x · W + b` at `(r, j)`. -/
theorem pay1_apply (v19 : Vec Ideal S10000x128 .bf16) (v21 : Vec Ideal S128x256 .bf16) (v24 : Vec Ideal S1x256 .f32) (r : Fin 10000) (j : Fin 256) :
    k0_pay1 (F := Ideal) v19 v21 v24 (ix2 r j) = (∑ k : Fin 128, v19 (ix2 r k) * v21 (ix2 k j)) + v24 (ix2 (0 : Fin 1) j) := by
  unfold k0_pay1
  simp only [shapeCast_self, matmul]
  rw [truncf_apply, addf_apply, broadcastTo_1b_ab_apply]
  rw [matmul_zero_ix2 dot_S10000x128_S128x256_S10000x256_1_0_0_1_n_n rfl rfl dA_l0 dA_l1 dA_r0 dA_r1]

/-- The second payload: `relu(A · X) · W + b` at `(r, j)`. -/
theorem pay2_apply (v3 : Vec Ideal S400x10000 .f32) (v5 : Vec Ideal S10000x256 .bf16) (v10 : Vec Ideal S256x128 .bf16) (v13 : Vec Ideal S1x128 .f32) (r : Fin 400) (j : Fin 128) :
    k0_pay2 (F := Ideal) v3 v5 v10 v13 (ix2 r j)
      = (∑ k : Fin 256, max (∑ k' : Fin 10000, v3 (ix2 r k') * v5 (ix2 k' k)) 0 * v10 (ix2 k j)) + v13 (ix2 (0 : Fin 1) j) := by
  unfold k0_pay2
  simp only [shapeCast_self, matmul]
  rw [truncf_apply, addf_apply, broadcastTo_1b_ab_apply]
  rw [matmul_zero_ix2 dot_S400x256_S256x128_S400x128_1_0_0_1_n_n rfl rfl dC_l0 dC_l1 dC_r0 dC_r1]
  refine congrArg (· + v13 (ix2 (0 : Fin 1) j)) (Finset.sum_congr rfl fun k _ => ?_)
  rw [truncf_apply, maximumf_apply, broadcast_apply]
  rw [matmul_zero_ix2 dot_S400x10000_S10000x256_S400x256_1_0_0_1_n_n rfl rfl dB_l0 dB_l1 dB_r0 dB_r1]
  show max (∑ k', v3 (ix2 r k') * v5 (ix2 k' k)) (Ideal.ofBits .f32 0x00000000#32) * v10 (ix2 k j) = _
  rw [Ideal.ofBits_zero_f32]

end Cert.KernelIdeal.Pay

end
-- ==== Proof.KernelFinals.lean ====
/-
  What the first kernel region leaves in its scratch and in its output array, read by coordinates at the ideal values.

  The region runs over 25 grid points. At point `t` the block of the adjacency it sees is rows `400·t … 400·t + 399`
  (all 10000 columns), every other input is the whole of its array at every point, and the output block written back
  at `t` is rows `400·t … 400·t + 399` of the output array (all 128 columns). So what point `t` writes back is block
  `t` of ONE function of the whole input arrays, the 25 blocks tile the 10000 rows (row `r` lies in block `r / 400`),
  and the output array ends holding that function:
    * the scratch built at the first point is  x · W1 + b1  (10000 × 256);
    * the first region's output is  relu(A · scratch) · W2 + b2  (10000 × 128).
-/
import proofs.«148140_g63204738728390_cont_9to1c4b_181_2_alg».proof.Proof.KI.Region0
import proofs.«148140_g63204738728390_cont_9to1c4b_181_2_alg».proof.Proof.Payloads
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b)) (c : Dev nD)

/-! ## The arrays the region reads and writes, as functions on the extended reals -/

/-- The adjacency (10000 × 10000). -/
abbrev arrA : S10000x10000.Idx → EReal := V c main_arg1
/-- The node features (10000 × 128). -/
abbrev arrX : S10000x128.Idx → EReal := V c main_v16
/-- The side-by-side first-layer weights (128 × 256). -/
abbrev arrW1 : S128x256.Idx → EReal := V c main_v1
/-- The concatenated first-layer biases, as a row (1 × 256). -/
abbrev arrB1 : S1x256.Idx → EReal := V c main_v3
/-- The block-diagonal second-layer weights (256 × 128). -/
abbrev arrW2 : S256x128.Idx → EReal := V c main_v13
/-- The concatenated second-layer biases, as a row (1 × 128). -/
abbrev arrB2 : S1x128.Idx → EReal := V c main_v15

/-! ## The first region's windows: which block of its array each one is at a grid point -/

/-- The index maps over the grid: the adjacency's window and the output's are at block row `t`, column block 0; every
    other window is at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The adjacency's block at point `t` is rows `400·t …` of the adjacency. -/
theorem blk0_A (t : Fin cfg0.N) (r' : Fin 400) (k : Fin 10000) (R : Fin 10000) (hR : R.val = 400 * t.val + r'.val) :
    (Hand.iblk0 V c 0 t : Vec Ideal S400x10000 .f32) (ix2 r' k) = arrA V c (ix2 R k) := by
  obtain ⟨e0, e1, -⟩ := idx0 t
  unfold Hand.iblk0
  rw [View.read_apply]
  show V c main_arg1 (((cfg0.win 0).blk t).view.emb (ix2 r' k)) = V c main_arg1 (ix2 R k)
  refine congrArg _ (funext fun a => Fin.ext ?_)
  match a with
  | ⟨0, _⟩ => show win0_0.index t (0 : Fin 2) * 400 + 1 * r'.val = R.val; omega
  | ⟨1, _⟩ => show win0_0.index t (1 : Fin 2) * 10000 + 1 * k.val = k.val; omega

/-- The features' block is the whole of the features. -/
theorem blk0_x (t : Fin cfg0.N) (r : Fin 10000) (k : Fin 128) :
    (Hand.iblk0 V c 1 t : Vec Ideal S10000x128 .bf16) (ix2 r k) = arrX V c (ix2 r k) := by
  obtain ⟨-, -, e0, e1, -⟩ := idx0 t
  unfold Hand.iblk0
  rw [View.read_apply]
  show V c main_v16 (((cfg0.win 1).blk t).view.emb (ix2 r k)) = V c main_v16 (ix2 r k)
  refine congrArg _ (funext fun a => Fin.ext ?_)
  match a with
  | ⟨0, _⟩ => show win0_1.index t (0 : Fin 2) * 10000 + 1 * r.val = r.val; omega
  | ⟨1, _⟩ => show win0_1.index t (1 : Fin 2) * 128 + 1 * k.val = k.val; omega

/-- The first-layer weights' block is the whole of them. -/
theorem blk0_W1 (t : Fin cfg0.N) (k : Fin 128) (j : Fin 256) :
    (Hand.iblk0 V c 2 t : Vec Ideal S128x256 .bf16) (ix2 k j) = arrW1 V c (ix2 k j) := by
  obtain ⟨-, -, -, -, e0, e1, -⟩ := idx0 t
  unfold Hand.iblk0
  rw [View.read_apply]
  show V c main_v1 (((cfg0.win 2).blk t).view.emb (ix2 k j)) = V c main_v1 (ix2 k j)
  refine congrArg _ (funext fun a => Fin.ext ?_)
  match a with
  | ⟨0, _⟩ => show win0_2.index t (0 : Fin 2) * 128 + 1 * k.val = k.val; omega
  | ⟨1, _⟩ => show win0_2.index t (1 : Fin 2) * 256 + 1 * j.val = j.val; omega

/-- The first-layer bias row's block is the whole of it. -/
theorem blk0_b1 (t : Fin cfg0.N) (z : Fin 1) (j : Fin 256) :
    (Hand.iblk0 V c 3 t : Vec Ideal S1x256 .f32) (ix2 z j) = arrB1 V c (ix2 z j) := by
  obtain ⟨-, -, -, -, -, -, e0, e1, -⟩ := idx0 t
  unfold Hand.iblk0
  rw [View.read_apply]
  show V c main_v3 (((cfg0.win 3).blk t).view.emb (ix2 z j)) = V c main_v3 (ix2 z j)
  refine congrArg _ (funext fun a => Fin.ext ?_)
  match a with
  | ⟨0, _⟩ => show win0_3.index t (0 : Fin 2) * 1 + 1 * z.val = z.val; omega
  | ⟨1, _⟩ => show win0_3.index t (1 : Fin 2) * 256 + 1 * j.val = j.val; omega

/-- The second-layer weights' block is the whole of them. -/
theorem blk0_W2 (t : Fin cfg0.N) (k : Fin 256) (j : Fin 128) :
    (Hand.iblk0 V c 4 t : Vec Ideal S256x128 .bf16) (ix2 k j) = arrW2 V c (ix2 k j) := by
  obtain ⟨-, -, -, -, -, -, -, -, e0, e1, -⟩ := idx0 t
  unfold Hand.iblk0
  rw [View.read_apply]
  show V c main_v13 (((cfg0.win 4).blk t).view.emb (ix2 k j)) = V c main_v13 (ix2 k j)
  refine congrArg _ (funext fun a => Fin.ext ?_)
  match a with
  | ⟨0, _⟩ => show win0_4.index t (0 : Fin 2) * 256 + 1 * k.val = k.val; omega
  | ⟨1, _⟩ => show win0_4.index t (1 : Fin 2) * 128 + 1 * j.val = j.val; omega

/-- The second-layer bias row's block is the whole of it. -/
theorem blk0_b2 (t : Fin cfg0.N) (z : Fin 1) (j : Fin 128) :
    (Hand.iblk0 V c 5 t : Vec Ideal S1x128 .f32) (ix2 z j) = arrB2 V c (ix2 z j) := by
  obtain ⟨-, -, -, -, -, -, -, -, -, -, e0, e1, -⟩ := idx0 t
  unfold Hand.iblk0
  rw [View.read_apply]
  show V c main_v15 (((cfg0.win 5).blk t).view.emb (ix2 z j)) = V c main_v15 (ix2 z j)
  refine congrArg _ (funext fun a => Fin.ext ?_)
  match a with
  | ⟨0, _⟩ => show win0_5.index t (0 : Fin 2) * 1 + 1 * z.val = z.val; omega
  | ⟨1, _⟩ => show win0_5.index t (1 : Fin 2) * 128 + 1 * j.val = j.val; omega

/-! ## The scratch: the fused first-layer features -/

/-- The scratch built at the first point is `x · W1 + b1`, entry by entry. -/
theorem xcVal_at (r : Fin 10000) (j : Fin 256) :
    Hand.xcVal (F := Ideal) V c (ix2 r j)
      = (∑ k : Fin 128, arrX V c (ix2 r k) * arrW1 V c (ix2 k j))
        + arrB1 V c (ix2 (0 : Fin 1) j) := by
  unfold Hand.xcVal
  refine (Pay.pay1_apply (Hand.iblk0 V c 1 Hand.t0) (Hand.iblk0 V c 2 Hand.t0) (Hand.iblk0 V c 3 Hand.t0) r j).trans ?_
  refine congrArg₂ (· + ·) (Finset.sum_congr rfl fun k _ => ?_) (blk0_b1 V c Hand.t0 0 j)
  exact congrArg₂ (· * ·) (blk0_x V c Hand.t0 r k) (blk0_W1 V c Hand.t0 k j)

/-! ## The first region's output array -/

/-- `relu(A · scratch) · W2 + b2` at a row and a column. -/
def g0At (r : Fin 10000) (j : Fin 128) : EReal :=
  (∑ k : Fin 256, max (∑ k' : Fin 10000, arrA V c (ix2 r k') * Hand.xcVal (F := Ideal) V c (ix2 k' k)) 0
      * arrW2 V c (ix2 k j))
    + arrB2 V c (ix2 (0 : Fin 1) j)

/-- The same as an array. -/
def g0 : S10000x128.Idx → EReal := fun i => g0At V c (i 0) (i 1)

/-- What point `t` writes back is block `t` of `g0`. -/
theorem flushed0_eq (t : Fin cfg0.N) :
    (Hand.dat0 (F := Ideal) V c).flushed 6 t = ((cfg0.win 6).blk t).view.read (Elt Ideal) (g0 V c) := by
  show (cfg0.win 6).cut (grid0.coords t) ((Hand.dat0 (F := Ideal) V c).after 6 t) = _
  rw [Hand.after0_6]
  funext y
  obtain ⟨r', j, rfl⟩ : ∃ (r' : Fin 400) (j : Fin 128), y = ix2 r' j := ⟨y 0, y 1, eq_ix2 y⟩
  have hN : cfg0.N = 25 := N_0
  have hR : 400 * t.val + r'.val < 10000 := by have := t.isLt; have := r'.isLt; omega
  obtain ⟨-, -, -, -, -, -, -, -, -, -, -, -, e0, e1⟩ := idx0 t
  rw [View.read_apply]
  have hemb : ((cfg0.win 6).blk t).view.emb (ix2 r' j) = ix2 (⟨400 * t.val + r'.val, hR⟩ : Fin 10000) j :=
    funext fun a => Fin.ext (by
      match a with
      | ⟨0, _⟩ => show win0_6.index t (0 : Fin 2) * 400 + 1 * r'.val = 400 * t.val + r'.val; omega
      | ⟨1, _⟩ => show win0_6.index t (1 : Fin 2) * 128 + 1 * j.val = j.val; omega)
  rw [hemb]
  show k0_pay2 (Hand.iblk0 V c 0 t) (Hand.xcVal V c) (Hand.iblk0 V c 4 t) (Hand.iblk0 V c 5 t) (ix2 r' j)
    = g0At V c ⟨400 * t.val + r'.val, hR⟩ j
  refine (Pay.pay2_apply (Hand.iblk0 V c 0 t) (Hand.xcVal V c) (Hand.iblk0 V c 4 t) (Hand.iblk0 V c 5 t) r' j).trans ?_
  unfold g0At
  refine congrArg₂ (· + ·) (Finset.sum_congr rfl fun k _ => ?_) (blk0_b2 V c t 0 j)
  refine congrArg₂ (· * ·) (congrArg (max · 0) (Finset.sum_congr rfl fun k' _ => ?_)) (blk0_W2 V c t k j)
  exact congrArg (· * _) (blk0_A V c t r' k' ⟨400 * t.val + r'.val, hR⟩ rfl)

/-- An index of the output array is in point `t`'s block iff each coordinate is in the block's range on its axis. -/
theorem mem_blk0 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v17).slice (win0_6.rect t)).set ↔ _
  rw [View.set_slice_whole, Rect.mem_set_unit]
  exact Iff.rfl

/-- Row `r` is in the block of point `r / 400`: the 25 blocks tile the array. -/
theorem cover0 (i : S10000x128.Idx) :
    ∃ t : Fin cfg0.N, (cfg0.win 6).flush t = true ∧ i ∈ ((cfg0.win 6).blk t).view.set := by
  have hN : cfg0.N = 25 := N_0
  have h0 : (i 0).val < 10000 := (i 0).isLt
  have h1 : (i 1).val < 128 := (i 1).isLt
  obtain ⟨t, ht⟩ : ∃ t : Fin cfg0.N, t.val = (i 0).val / 400 := ⟨⟨(i 0).val / 400, by omega⟩, rfl⟩
  refine ⟨t, flush0_6 t, ?_⟩
  rw [mem_blk0]
  obtain ⟨-, -, -, -, -, -, -, -, -, -, -, -, e0, e1⟩ := idx0 t
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 128 ≤ (i 1).val ∧ (i 1).val < win0_6.index t (1 : Fin 2) * 128 + 128; omega

/-- The first region's output array after all its points. -/
theorem final0_arr : (Hand.dat0 (F := Ideal) V c).arrAt 6 cfg0.N = g0 V c :=
  (Hand.dat0 (F := Ideal) V c).arrAt_eq_of_cover 6 (g0 V c) (fun t _ => flushed0_eq V c t) cover0

/-- The same by coordinates. -/
theorem final0_at (r : Fin 10000) (j : Fin 128) :
    (Hand.dat0 (F := Ideal) V c).arrAt 6 cfg0.N (ix2 r j) = g0At V c r j :=
  congrFun (final0_arr V c) (ix2 r j)

/-- `g0At`, spelt out. -/
theorem g0At_eq (r : Fin 10000) (j : Fin 128) :
    g0At V c r j
      = (∑ k : Fin 256, max (∑ k' : Fin 10000, arrA V c (ix2 r k') * Hand.xcVal (F := Ideal) V c (ix2 k' k)) 0
            * arrW2 V c (ix2 k j))
        + arrB2 V c (ix2 (0 : Fin 1) j) := rfl

/-! ## The same two facts over plain functions tied to the arrays by hypotheses -/

/-- The scratch is `x · W1 + b1`, for the features, weights and bias row given as functions. -/
theorem xcVal_apply (X1 : S10000x128.Idx → EReal) (Wc : S128x256.Idx → EReal) (Bc : S1x256.Idx → EReal)
    (h16 : V c main_v16 = X1) (h1 : V c main_v1 = Wc) (h3 : V c main_v3 = Bc) (r : Fin 10000) (j : Fin 256) :
    Hand.xcVal (F := Ideal) V c (ix2 r j) = (∑ k : Fin 128, X1 (ix2 r k) * Wc (ix2 k j)) + Bc (ix2 (0 : Fin 1) j) := by
  subst h16 h1 h3
  exact xcVal_at V c r j

/-- The first region's output array is `relu(A · X) · W + b`, for the adjacency, the scratch, the second-layer weights
    and bias row given as functions. -/
theorem final0 (A : S10000x10000.Idx → EReal) (X : S10000x256.Idx → EReal) (W : S256x128.Idx → EReal) (B : S1x128.Idx → EReal)
    (hA : V c main_arg1 = A) (hX : Hand.xcVal (F := Ideal) V c = X) (hW : V c main_v13 = W) (hB : V c main_v15 = B)
    (r : Fin 10000) (j : Fin 128) :
    (Hand.dat0 (F := Ideal) V c).arrAt 6 cfg0.N (ix2 r j)
      = (∑ k : Fin 256, max (∑ k' : Fin 10000, A (ix2 r k') * X (ix2 k' k)) 0 * W (ix2 k j)) + B (ix2 (0 : Fin 1) j) := by
  subst hA hX hW hB
  exact final0_at V c r j

end Cert.KernelIdeal.Val

end
-- ==== Proof.KernelFinal1.lean ====
/-
  The second kernel region's result, by coordinates, at the ideal instance.

  The region walks the 25 blocks of 400 rows of the adjacency `A`; at each it multiplies the block by the whole of the
  features `X` and writes the 400 × 128 product back as the matching block of rows of the output. What each point writes
  back is therefore its block of ONE function of the two arrays, `(r, j) ↦ ∑ k, A r k * X k j`, and the 25 blocks tile the
  output: so the output array ends holding that function.
-/
import proofs.«148140_g63204738728390_cont_9to1c4b_181_2_alg».proof.Proof.KI.Body0
import proofs.«148140_g63204738728390_cont_9to1c4b_181_2_alg».proof.Proof.KI.Region1
import proofs.«148140_g63204738728390_cont_9to1c4b_181_2_alg».proof.Proof.Payloads
import Idealize.ShloMosaic.Lib.Pipeline.Value
import Idealize.ShloMosaic.Lib.ValueIdx

set_option maxRecDepth 16384

noncomputable section

namespace Cert.KernelIdeal.Val1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The propagated features: `A · X` at row `i 0`, column `i 1`. -/
def G1 (A : S10000x10000.Idx → EReal) (X : S10000x128.Idx → EReal) : S10000x128.Idx → EReal :=
  fun i => ∑ k : Fin 10000, A (ix2 (i 0) k) * X (ix2 k (i 1))

/-- `G1` at row `r`, column `j`. -/
theorem G1_apply (A : S10000x10000.Idx → EReal) (X : S10000x128.Idx → EReal) (r : Fin 10000) (j : Fin 128) :
    G1 A X (ix2 r j) = ∑ k : Fin 10000, A (ix2 r k) * X (ix2 k j) := rfl

/-- The product of a 400-row block with the whole of the features, at any index of the block. -/
theorem pay3_block (x0 : Vec Ideal S400x10000 .f32) (x1 : Vec Ideal S10000x128 .bf16) (y : S400x128.Idx) :
    k1_pay1 (F := Ideal) x0 x1 y = ∑ k : Fin 10000, x0 (ix2 (y 0) k) * x1 (ix2 k (y 1)) :=
  (congrArg (k1_pay1 (F := Ideal) x0 x1) (eq_ix2 (n0 := 400) (n1 := 128) y)).trans (Pay.pay3_apply x0 x1 (y 0) (y 1))

/-- The block indices over the grid: at point `t` the adjacency's and the output's blocks are the `t`-th blocks of rows,
    the features' block is the whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Region
variable (V : (c : Dev nD) → (b : Ref sig .tc) → Buf (Elt Ideal) ((c : Thread nD τ).loc b)) (c : Dev nD)

/-- The adjacency's block at point `t` is rows `400 t … 400 t + 399` of the adjacency. -/
theorem iblk1_0_apply (t : Fin cfg1.N) (x : S400x10000.Idx) (k : S10000x10000.Idx)
    (hk0 : (k 0).val = 400 * t.val + (x 0).val) (hk1 : (k 1).val = (x 1).val) :
    (Hand.iblk1 V c 0 t : Vec Ideal S400x10000 .f32) x = (V c main_arg1 : S10000x10000.Idx → EReal) k := by
  obtain ⟨e0, e1, -, -, -, -⟩ := idx_facts1 t
  unfold Hand.iblk1
  rw [View.read_apply]
  show V c main_arg1 _ = V c main_arg1 _
  congr 1
  funext a
  apply Fin.ext
  match a with
  | ⟨0, _⟩ => show win1_0.index t (0 : Fin 2) * 400 + 1 * (x 0).val = (k 0).val; rw [e0, hk0]; omega
  | ⟨1, _⟩ => show win1_0.index t (1 : Fin 2) * 10000 + 1 * (x 1).val = (k 1).val; rw [e1, hk1]; omega

/-- The features' block at every point is the whole of the features. -/
theorem iblk1_1_apply (t : Fin cfg1.N) (x : S10000x128.Idx) (k : S10000x128.Idx)
    (hk0 : (k 0).val = (x 0).val) (hk1 : (k 1).val = (x 1).val) :
    (Hand.iblk1 V c 1 t : Vec Ideal S10000x128 .bf16) x = (V c main_v17 : S10000x128.Idx → EReal) k := by
  obtain ⟨-, -, e2, e3, -, -⟩ := idx_facts1 t
  unfold Hand.iblk1
  rw [View.read_apply]
  show V c main_v17 _ = V c main_v17 _
  congr 1
  funext a
  apply Fin.ext
  match a with
  | ⟨0, _⟩ => show win1_1.index t (0 : Fin 2) * 10000 + 1 * (x 0).val = (k 0).val; rw [e2, hk0]; omega
  | ⟨1, _⟩ => show win1_1.index t (1 : Fin 2) * 128 + 1 * (x 1).val = (k 1).val; rw [e3, hk1]; omega

/-- What point `t` writes back is block `t` of `G1` of the two arrays as the region finds them. -/
theorem flushed1_eq (t : Fin cfg1.N) :
    (Hand.dat1 (F := Ideal) V c).flushed 2 t
      = ((cfg1.win 2).blk t).view.read (Elt Ideal) (G1 (V c main_arg1) (V c main_v17)) := by
  show (cfg1.win 2).cut (grid1.coords t) ((Hand.dat1 (F := Ideal) V c).after 2 t) = _
  rw [Hand.after1_2]
  unfold Hand.out1_2
  rw [View.canon_unit_zero Hand.zero2]
  simp only [View.ld_unit_zero (S := S400x10000) Hand.zero2, View.ld_unit_zero (S := S10000x128) Hand.zero2]
  obtain ⟨-, -, -, -, e4, e5⟩ := idx_facts1 t
  funext y
  show k1_pay1 (F := Ideal) (Hand.iblk1 V c 0 t) (Hand.iblk1 V c 1 t) y
    = G1 (V c main_arg1) (V c main_v17) (((cfg1.win 2).blk t).view.emb y)
  refine (pay3_block _ _ y).trans ?_
  unfold G1
  refine Finset.sum_congr rfl fun k _ => ?_
  have h0 : ((((cfg1.win 2).blk t).view.emb y) 0).val = 400 * t.val + (y 0).val := by
    show win1_2.index t (0 : Fin 2) * 400 + 1 * (y 0).val = _
    rw [e4]; omega
  have h1 : ((((cfg1.win 2).blk t).view.emb y) 1).val = (y 1).val := by
    show win1_2.index t (1 : Fin 2) * 128 + 1 * (y 1).val = _
    rw [e5]; omega
  rw [iblk1_0_apply V c t (ix2 (y 0) k) (ix2 ((((cfg1.win 2).blk t).view.emb y) 0) k) h0 rfl,
    iblk1_1_apply V c t (ix2 k (y 1)) (ix2 k ((((cfg1.win 2).blk t).view.emb y) 1)) rfl h1]

/-- An index of the output is in point `t`'s block iff each coordinate is in the block's range on its axis. -/
theorem mem_blk1 (t : Fin cfg1.N) (i : S10000x128.Idx) :
    i ∈ ((cfg1.win 2).blk t).view.set
      ↔ ∀ a : Fin 2, win1_2.index t a * S400x128.size a ≤ (i a).val ∧ (i a).val < win1_2.index t a * S400x128.size a + S400x128.size a := by
  show i ∈ ((View.whole main_v18).slice (win1_2.rect t)).set ↔ _
  rw [View.set_slice_whole, Rect.mem_set_unit]
  exact Iff.rfl

/-- The 25 blocks tile the output: row `r` lies in the block of point `r / 400`. -/
theorem covered1 (i : S10000x128.Idx) :
    ∃ t : Fin cfg1.N, (cfg1.win 2).flush t = true ∧ i ∈ ((cfg1.win 2).blk t).view.set := by
  have hN : cfg1.N = 25 := Gen.N_1
  have hi0 : (i 0).val < 10000 := (i 0).isLt
  have hi1 : (i 1).val < 128 := (i 1).isLt
  have ht : (i 0).val / 400 < cfg1.N := by rw [hN]; omega
  refine ⟨⟨(i 0).val / 400, ht⟩, flush1_2 _, ?_⟩
  obtain ⟨-, -, -, -, e4, e5⟩ := idx_facts1 ⟨(i 0).val / 400, ht⟩
  rw [mem_blk1]
  intro a
  match a with
  | ⟨0, _⟩ =>
    show win1_2.index ⟨(i 0).val / 400, ht⟩ (0 : Fin 2) * 400 ≤ (i 0).val
      ∧ (i 0).val < win1_2.index ⟨(i 0).val / 400, ht⟩ (0 : Fin 2) * 400 + 400
    rw [e4]
    show (i 0).val / 400 * 400 ≤ (i 0).val ∧ (i 0).val < (i 0).val / 400 * 400 + 400
    omega
  | ⟨1, _⟩ =>
    show win1_2.index ⟨(i 0).val / 400, ht⟩ (1 : Fin 2) * 128 ≤ (i 1).val
      ∧ (i 1).val < win1_2.index ⟨(i 0).val / 400, ht⟩ (1 : Fin 2) * 128 + 128
    rw [e5]; omega

/-- The output array after all 25 grid points is `A · X`. -/
theorem final1_eq : (Hand.dat1 (F := Ideal) V c).arrAt 2 cfg1.N = G1 (V c main_arg1) (V c main_v17) :=
  (Hand.dat1 (F := Ideal) V c).arrAt_eq_of_cover 2 (G1 (V c main_arg1) (V c main_v17)) (fun t _ => flushed1_eq V c t) (covered1)

/-- The same at an index. -/
theorem final1_G1 (r : Fin 10000) (j : Fin 128) :
    ((Hand.dat1 (F := Ideal) V c).arrAt 2 cfg1.N : S10000x128.Idx → EReal) (ix2 r j)
      = G1 (V c main_arg1) (V c main_v17) (ix2 r j) :=
  congrFun (final1_eq V c) (ix2 r j)

/-- The same by coordinates, the two arrays named: row `r`, column `j` of the output is `∑ k, A r k * X k j`. -/
theorem final1 (A : S10000x10000.Idx → EReal) (G : S10000x128.Idx → EReal) (hA : V c main_arg1 = A) (hG : V c main_v17 = G)
    (r : Fin 10000) (j : Fin 128) :
    (Hand.dat1 (F := Ideal) V c).arrAt 2 cfg1.N (ix2 r j) = ∑ k : Fin 10000, A (ix2 r k) * G (ix2 k j) := by
  subst hA; subst hG
  exact final1_G1 V c r j

end Region

end Cert.KernelIdeal.Val1

end
-- ==== Proof.KernelValue.lean ====
/-
  What the fused kernel program leaves in its two results, at the ideal instance: the second region's output array is
  O = A · G with G the first region's output array, G the fused second-layer features of A, the fused first-layer
  features kept in the scratch, and the fused weights and biases the host operations build; the two results are the
  left and right 64 columns of O.
-/
import proofs.«148140_g63204738728390_cont_9to1c4b_181_2_alg».proof.Proof.KI.Run
import proofs.«148140_g63204738728390_cont_9to1c4b_181_2_alg».proof.Proof.Spec
import proofs.«148140_g63204738728390_cont_9to1c4b_181_2_alg».proof.Proof.FusedLaw
import proofs.«148140_g63204738728390_cont_9to1c4b_181_2_alg».proof.Proof.HostVals
import proofs.«148140_g63204738728390_cont_9to1c4b_181_2_alg».proof.Proof.KernelFinals
import proofs.«148140_g63204738728390_cont_9to1c4b_181_2_alg».proof.Proof.KernelFinal1
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ) (c : Dev nD)

/-- The two results are the column slices of the second region's output array. -/
theorem W4_v19_eq : (Hand.W4 m c (Proc.devRef .tc main_v19) : S10000x64.Idx → EReal)
    = extractStridedSlice S10000x64 ![0, 0] (Hand.W3 m c (Proc.devRef .tc main_v18) : S10000x128.Idx → EReal) slices_S10000x128_S10000x64_0_0 := by
  dsimp only [Hand.W4, hostOps2]; after_results
theorem W4_v20_eq : (Hand.W4 m c (Proc.devRef .tc main_v20) : S10000x64.Idx → EReal)
    = extractStridedSlice S10000x64 ![0, 64] (Hand.W3 m c (Proc.devRef .tc main_v18) : S10000x128.Idx → EReal) slices_S10000x128_S10000x64_0_64 := by
  dsimp only [Hand.W4, hostOps2]; after_results

theorem W4_v19_apply (r : Fin 10000) (j : Fin 64) :
    (Hand.W4 m c (Proc.devRef .tc main_v19) : S10000x64.Idx → EReal) (ix2 r j)
      = (Hand.W3 m c (Proc.devRef .tc main_v18) : S10000x128.Idx → EReal) (ix2 r (⟨j.val, by have := j.isLt; omega⟩ : Fin 128)) := by
  rw [W4_v19_eq]
  refine extractStridedSlice_apply _ _ _ _ _ fun a => ?_
  match a with
  | ⟨0, _⟩ => show r.val = 0 + r.val; omega
  | ⟨1, _⟩ => show j.val = 0 + j.val; omega
theorem W4_v20_apply (r : Fin 10000) (j : Fin 64) :
    (Hand.W4 m c (Proc.devRef .tc main_v20) : S10000x64.Idx → EReal) (ix2 r j)
      = (Hand.W3 m c (Proc.devRef .tc main_v18) : S10000x128.Idx → EReal) (ix2 r (⟨j.val + 64, by have := j.isLt; omega⟩ : Fin 128)) := by
  rw [W4_v20_eq]
  refine extractStridedSlice_apply _ _ _ _ _ fun a => ?_
  match a with
  | ⟨0, _⟩ => show r.val = 0 + r.val; omega
  | ⟨1, _⟩ => show j.val + 64 = 64 + j.val; omega

open Cert.Coteach

/-- The scratch's contents are the fused first-layer features of the arguments. -/
theorem xc_fun : (Hand.xcVal (F := Ideal) (Hand.V1 m) c : S10000x256.Idx → EReal)
    = fun i => xcF (m ((c : Thread nD τ).loc main_arg0)) (m ((c : Thread nD τ).loc main_arg2)) (m ((c : Thread nD τ).loc main_arg6)) (m ((c : Thread nD τ).loc main_arg3)) (m ((c : Thread nD τ).loc main_arg7)) (i 0) (i 1) := by
  funext i
  obtain ⟨r, j, rfl⟩ : ∃ (r : Fin 10000) (j : Fin 256), i = ix2 r j := ⟨i 0, i 1, eq_ix2 i⟩
  refine (xcVal_apply (Hand.V1 m) c _ _ _ (HostVals.V1_v16 m c) (HostVals.V1_v1 m c) (HostVals.V1_v3 m c) r j).trans ?_
  rfl

/-- The first region's output array is the fused second-layer features G of the arguments. -/
theorem g_fun : (Hand.V2 m c main_v17 : S10000x128.Idx → EReal) = fun i => fusedG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1) := by
  funext i
  obtain ⟨r, j, rfl⟩ : ∃ (r : Fin 10000) (j : Fin 128), i = ix2 r j := ⟨i 0, i 1, eq_ix2 i⟩
  refine (congrFun (Hand.W2_arr m c 6) (ix2 r j)).trans ?_
  refine (final0 (Hand.V1 m) c _ _ _ _ (HostVals.V1_arg1 m c) (xc_fun m c) (HostVals.V1_v13 m c) (HostVals.V1_v15 m c) r j).trans ?_
  rfl

/-- The second region's output array is O = A · G. -/
theorem o_apply (r : Fin 10000) (j : Fin 128) :
    (Hand.W3 m c (Proc.devRef .tc main_v18) : S10000x128.Idx → EReal) (ix2 r j) = fusedO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) r j := by
  refine (congrFun (Hand.W3_arr m c 2) (ix2 r j)).trans ?_
  refine (Val1.final1 (Hand.V2 m) c _ _ ((Hand.V2_main_arg1 m c).trans (HostVals.V1_arg1 m c)) (g_fun m c) r j).trans ?_
  rfl

/-- The first result is the left 64 columns of O. -/
theorem W4_v19_fused : (Hand.W4 m c (Proc.devRef .tc main_v19) : S10000x64.Idx → EReal) = fusedOut1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨r, j, rfl⟩ : ∃ (r : Fin 10000) (j : Fin 64), i = ix2 r j := ⟨i 0, i 1, eq_ix2 i⟩
  rw [W4_v19_apply, o_apply]
  rfl

/-- The second result is the right 64 columns of O. -/
theorem W4_v20_fused : (Hand.W4 m c (Proc.devRef .tc main_v20) : S10000x64.Idx → EReal) = fusedOut2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨r, j, rfl⟩ : ∃ (r : Fin 10000) (j : Fin 64), i = ix2 r j := ⟨i 0, i 1, eq_ix2 i⟩
  rw [W4_v20_apply, o_apply]
  rfl
/-- THE KERNEL PROGRAM'S RUN, read: each result at one network's output of the arguments, the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v19) = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v20) = gcn (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v19 (by decide))).trans ((W4_v19_fused m c).trans (fusedOut1_eq _ _ _ _ _ _ _ _ _ _)),
     (h c _ (mem_uc main_v20 (by decide))).trans ((W4_v20_fused m c).trans (fusedOut2_eq _ _ _ _ _ _ _ _ _ _)),
     (h c _ (mem_uc main_arg0 (by decide))).trans (W4_untouched m c main_arg0 (by decide) (by decide) (by decide) (by decide)),
     (h c _ (mem_uc main_arg1 (by decide))).trans (W4_main_arg1 m c),
     (h c _ (mem_uc main_arg2 (by decide))).trans (W4_untouched m c main_arg2 (by decide) (by decide) (by decide) (by decide)),
     (h c _ (mem_uc main_arg3 (by decide))).trans (W4_untouched m c main_arg3 (by decide) (by decide) (by decide) (by decide)),
     (h c _ (mem_uc main_arg4 (by decide))).trans (W4_untouched m c main_arg4 (by decide) (by decide) (by decide) (by decide)),
     (h c _ (mem_uc main_arg5 (by decide))).trans (W4_untouched m c main_arg5 (by decide) (by decide) (by decide) (by decide)),
     (h c _ (mem_uc main_arg6 (by decide))).trans (W4_untouched m c main_arg6 (by decide) (by decide) (by decide) (by decide)),
     (h c _ (mem_uc main_arg7 (by decide))).trans (W4_untouched m c main_arg7 (by decide) (by decide) (by decide) (by decide)),
     (h c _ (mem_uc main_arg8 (by decide))).trans (W4_untouched m c main_arg8 (by decide) (by decide) (by decide) (by decide)),
     (h c _ (mem_uc main_arg9 (by decide))).trans (W4_untouched m c main_arg9 (by decide) (by decide) (by decide) (by decide))⟩)
    (run_all m ρ)

end Cert.KernelIdeal.Val

end
-- ==== Proof.lean ====
/-
  The certificate of a fused pair of 2-layer graph convolutions against its reference.

  The kernel program computes both networks at once: host operations put the first-layer weights side by side, the
  second-layer weights block-diagonal and the biases end to end; a first kernel region builds the fused first-layer
  features once (at its first grid point, in a scratch buffer that persists across the grid) and writes, block of 400
  rows by block, G = relu(A · Xc) · W2 + b2; a second region writes O = A · G the same way; the results are the left
  and right 64 columns of O. The reference computes each network separately. At the ideal instance (extended reals,
  exact operations, format changes the identity) the two agree: the off-diagonal blocks of the fused second-layer
  weights are zero and x * 0 = 0 for every extended real x, so each half of the fused second-layer sum is one
  network's sum; everything else is the same sums. No finiteness is used.

  The frames: each program terminates on every weakly fair execution, faults nowhere and leaves its arguments
  unchanged. For the two kernel programs this is the run of the program's four segments (host operations, region,
  region, host operations) with the first region's invariant carrying the scratch's contents from point to point;
  for the reference it is its straight-line run. Nothing was rewritten by the ideal pass, so `preserves` is trivial.
-/
import proofs.«148140_g63204738728390_cont_9to1c4b_181_2_alg».proof.Defs
import proofs.«148140_g63204738728390_cont_9to1c4b_181_2_alg».proof.Proof.Gen.Kernel
import proofs.«148140_g63204738728390_cont_9to1c4b_181_2_alg».proof.Proof.Gen.KernelIdeal
import proofs.«148140_g63204738728390_cont_9to1c4b_181_2_alg».proof.Proof.Gen.ReferenceIdeal
import proofs.«148140_g63204738728390_cont_9to1c4b_181_2_alg».proof.Proof.Gen.Pre_finite_inputs
import proofs.«148140_g63204738728390_cont_9to1c4b_181_2_alg».proof.Proof.K.Run
import proofs.«148140_g63204738728390_cont_9to1c4b_181_2_alg».proof.Proof.KI.Run
import proofs.«148140_g63204738728390_cont_9to1c4b_181_2_alg».proof.Proof.RefValue
import proofs.«148140_g63204738728390_cont_9to1c4b_181_2_alg».proof.Proof.KernelValue
import proofs.«148140_g63204738728390_cont_9to1c4b_181_2_alg».proof.Proof.FusedLaw
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2.2) (Cert.ReferenceIdeal.RefValue.run m ρ)

theorem preserves : Cert.preserves_Kernel_KernelIdeal := trivial

/-- Both programs, run from memories agreeing on the arguments, end with each result at one network's output of the
    arguments: the kernel program's by its fused form and the law that splits it, the reference's directly. -/
theorem algebraic : Cert.algebraic_KernelIdeal_ReferenceIdeal := by
  intro m ρ m' ρ' _ hagree
  refine ⟨_, _, Cert.KernelIdeal.Val.run m ρ, ?_⟩
  refine (θ_run Cert.ReferenceIdeal.defs _ _).mono (fun _ h c => ?_) (Cert.ReferenceIdeal.RefValue.run m' ρ')
  obtain ⟨h1, h2, hrest⟩ := h c
  obtain ⟨e0, e1, e2, e3, e4, e5, e6, e7, e8, e9⟩ := hagree c
  refine ⟨h1.trans ?_, h2.trans ?_, hrest⟩
  · rw [e0, e1, e2, e3, e4, e5]
  · rw [e0, e1, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
